-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x41600 : S_.BroadcastsInDim S4096x41600 (![] : Fin 0 → Fin S4096x41600.rank)
  reducesTo_S4096x41600_S_d0_1 : S4096x41600.ReducesTo [0, 1] S_
  h_S_ : 0 < S_.numel
  bcast_S_S256x41600 : S_.BroadcastsInDim S256x41600 (![] : Fin 0 → Fin S256x41600.rank)
  reducesTo_S256x41600_S_d0_1 : S256x41600.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x512 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x41600 .f32) (main_arg1 : FVec F S4096x41600 .f32) (main_arg2 : FVec F S256x41600 .f32) (main_arg3 : FVec F S256 .f32) (main_arg4 : FVec F S32x512 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S4096x41600 .f32 := Host.absf main_arg0
  let main_cst : FVec F S_ .f32 := constant S_ .f32 0x7F800000#32
  let main_v1 : FVec F S4096x41600 .f32 := broadcastInDim S4096x41600 ![] bcast_S_S4096x41600 main_cst
  let main_v2 : IVec S4096x41600 1 := cmpf .olt main_v0 main_v1
  let main_c : IVec S_ 1 := constantI S_ 1 1#1
  let main_v3 : IVec S_ 1 := (fun x v => Host.reduce IntOp.andi x v reducesTo_S4096x41600_S_d0_1 h_S_) main_v2 main_c
  let main_v4 : FVec F S4096x41600 .f32 := Host.absf main_arg1
  let main_cst_0 : FVec F S_ .f32 := constant S_ .f32 0x7F800000#32
  let main_v5 : FVec F S4096x41600 .f32 := broadcastInDim S4096x41600 ![] bcast_S_S4096x41600 main_cst_0
  let main_v6 : IVec S4096x41600 1 := cmpf .olt main_v4 main_v5
  let main_c_1 : IVec S_ 1 := constantI S_ 1 1#1
  let main_v7 : IVec S_ 1 := (fun x v => Host.reduce IntOp.andi x v reducesTo_S4096x41600_S_d0_1 h_S_) main_v6 main_c_1
  let main_v8 : IVec S_ 1 := andi main_v3 main_v7
  let main_v9 : FVec F S256x41600 .f32 := Host.absf main_arg2
  let main_cst_2 : FVec F S_ .f32 := constant S_ .f32 0x7F800000#32
  let main_v10 : FVec F S256x41600 .f32 := broadcastInDim S256x41600 ![] bcast_S_S256x41600 main_cst_2
  let main_v11 : IVec S256x41600 1 := cmpf .olt main_v9 main_v10
  let main_c_3 : IVec S_ 1 := constantI S_ 1 1#1
  let main_v12 : IVec S_ 1 := (fun x v => Host.reduce IntOp.andi x v reducesTo_S256x41600_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41600x256 : Shape := ⟨2, ![41600, 256]⟩
abbrev S1x256 : Shape := ⟨2, ![1, 256]⟩
abbrev S1x1 : Shape := ⟨2, ![1, 1]⟩
abbrev S4096x1 : Shape := ⟨2, ![4096, 1]⟩
abbrev S512x640 : Shape := ⟨2, ![512, 640]⟩
abbrev S512x1 : Shape := ⟨2, ![512, 1]⟩
abbrev S512x512 : Shape := ⟨2, ![512, 512]⟩
abbrev S640x256 : Shape := ⟨2, ![640, 256]⟩
abbrev S512x256 : Shape := ⟨2, ![512, 256]⟩
abbrev S1x512 : Shape := ⟨2, ![1, 512]⟩
abbrev S512x32 : Shape := ⟨2, ![512, 32]⟩
abbrev S32x1 : Shape := ⟨2, ![32, 1]⟩

abbrev nBuf : Space → Nat
  | .hbm => 17
  | .vmem => 15
  | .smem => 0
  | _ => 0

abbrev bufTy : (tb : Table) → Fin (tcTables nBuf tb) → BufTy
  | .hbm, ⟨0, _⟩ => ⟨S4096x41600, .f32⟩
  | .hbm, ⟨1, _⟩ => ⟨S4096x41600, .f32⟩
  | .hbm, ⟨2, _⟩ => ⟨S256x41600, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S41600x256, .f32⟩
  | .hbm, ⟨11, _⟩ => ⟨S41600x256, .bf16⟩
  | .hbm, ⟨12, _⟩ => ⟨S1x256, .f32⟩
  | .hbm, ⟨13, _⟩ => ⟨S1x32, .f32⟩
  | .hbm, ⟨14, _⟩ => ⟨S1x32, .f32⟩
  | .hbm, ⟨15, _⟩ => ⟨S1x1, .f32⟩
  | .hbm, ⟨16, _⟩ => ⟨S4096x1, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S41600x256, .bf16⟩
  | .local _ .vmem, ⟨5, _⟩ => ⟨S1x256, .f32⟩
  | .local _ .vmem, ⟨6, _⟩ => ⟨S32x512, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S1x32, .f32⟩
  | .local _ .vmem, ⟨11, _⟩ => ⟨S1x1, .f32⟩
  | .local _ .vmem, ⟨12, _⟩ => ⟨S512x1, .f32⟩
  | .local _ .vmem, ⟨13, _⟩ => ⟨S512x1, .f32⟩
  | .local _ .vmem, ⟨14, _⟩ => ⟨S512x512, .f32⟩
  | _, _ => ⟨S4096x41600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 65], ![false, false]⟩

def k0_mult1 (i : grid0.Coords) : BitVec 32 :=
  let arg1 : BitVec 32 := BitVec.ofNat 32 (i 1).val
  let c640_i32 : BitVec 32 := 640#32
  let v7 : BitVec 32 := Scalar.muli arg1 c640_i32
  v7
def k0_off1 (i : grid0.Coords) : Fin 2 → Nat :=
  let arg1 : BitVec 32 := BitVec.ofNat 32 (i 1).val
  let c640_i32 : BitVec 32 := 640#32
  let v7 : BitVec 32 := Scalar.muli arg1 c640_i32
  let v8 : BitVec 32 := v7
  let v9 : Index := Scalar.indexCast v8
  let c0_4 : Index := 0#32
  ![v9.toNat, 0]
def k0_cond2 (i : grid0.Coords) : BitVec 1 :=
  let arg1 : BitVec 32 := BitVec.ofNat 32 (i 1).val
  let c64_i32 : BitVec 32 := 64#32
  let v24 : BitVec 1 := Scalar.cmpi .eq arg1 c64_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S41600x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S256x41600_S41600x256_1_0 : S256x41600.Transposes [1, 0] S41600x256
  bitsLt_bf16_f32 : FTy.bits .bf16 < FTy.bits .f32
  shapeCasts_S256_S1x256 : S256.ShapeCasts S1x256
  shapeCasts_S32_S1x32 : S32.ShapeCasts S1x32
  shapeCasts_S1_S1x1 : S1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x640_S512x640_0_0 : ∀ a, (![0, 0] : Fin 2 → Nat) a + S512x640.size a ≤ S512x640.size a
  h_S512x640 : 0 < S512x640.numel
  h_S640x256 : 0 < S640x256.numel
  shapeCasts_S640x256_S640x256 : S640x256.ShapeCasts S640x256
  inb_S512x512_S512x256_0_0 : ∀ a, (![0, 0] : Fin 2 → Nat) a + S512x256.size a ≤ S512x512.size a
  h_S512x256 : 0 < S512x256.numel
  shapeCasts_S512x256_S512x256 : S512x256.ShapeCasts S512x256
  inb_S512x512_S512x256_0_256 : ∀ a, (![0, 256] : Fin 2 → Nat) a + S512x256.size a ≤ S512x512.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  concatenates_S1x256_S1x256_S1x512_d1 : Shape.Concatenates [S1x256, S1x256] S1x512 1
  broadcasts_S1x512_S512x512 : S1x512.Broadcasts S512x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x640_S640x256_S512x256_1_0_0_1_n_n_wf : DotDims.WF S512x640 S640x256 S512x256 [1] [0] [0] [1] [] []
  dot_S512x512_S512x32_S512x32_1_0_0_1_n_n_wf : DotDims.WF S512x512 S512x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  k0_mult1_dvd : ∀ i : grid0.Coords, 640 ∣ (k0_mult1 i).toNat
  k0_off1_inb : ∀ i : grid0.Coords, ∀ a, (k0_off1 i) a + S640x256.size a ≤ S41600x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x640.size a ≤ S4096x41600.size a
  hwx0_0 : ∀ i : grid0.Coords, EltTy.bits .f32 = 32 ∨ (Rect.block (s := S4096x41600) S512x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S4096x41600.size a
  hwx0_1 : ∀ i : grid0.Coords, EltTy.bits .f32 = 32 ∨ (Rect.block (s := S4096x41600) S512x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S41600x256.size a ≤ S41600x256.size a
  hwx0_2 : ∀ i : grid0.Coords, EltTy.bits .bf16 = 32 ∨ (Rect.block (s := S41600x256) S41600x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)

variable [Facts₀]

def dot_S512x640_S640x256_S512x256_1_0_0_1_n_n : DotDims S512x640 S640x256 S512x256 where
  lhsContracting := [1]
  rhsContracting := [0]
  lhsNonContracting := [0]
  rhsNonContracting := [1]
  lhsBatch := []
  rhsBatch := []
  wf := dot_S512x640_S640x256_S512x256_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S512x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S41600x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x41600 : Shape := ⟨2, ![4096, 41600]⟩
abbrev S256x41600 : Shape := ⟨2, ![256, 41600]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41600x256 : Shape := ⟨2, ![41600, 256]⟩
abbrev S4096x256 : Shape := ⟨2, ![4096, 256]⟩
abbrev S1x256 : Shape := ⟨2, ![1, 256]⟩
abbrev S4096x512 : Shape := ⟨2, ![4096, 512]⟩
abbrev S_ : Shape := ⟨0, ![]⟩
abbrev S512x32 : Shape := ⟨2, ![512, 32]⟩
abbrev S4096x32 : Shape := ⟨2, ![4096, 32]⟩
abbrev S32x1 : Shape := ⟨2, ![32, 1]⟩
abbrev S4096x1 : Shape := ⟨2, ![4096, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x41600, .f32⟩
  | .hbm, ⟨1, _⟩ => ⟨S4096x41600, .f32⟩
  | .hbm, ⟨2, _⟩ => ⟨S256x41600, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S41600x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S41600x256, .f32⟩
  | .hbm, ⟨16, _⟩ => ⟨S4096x256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S512x32, .f32⟩
  | .hbm, ⟨47, _⟩ => ⟨S4096x32, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .f32⟩
  | .hbm, ⟨54, _⟩ => ⟨S_, .f32⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x32, .f32⟩
  | .hbm, ⟨61, _⟩ => ⟨S4096x32, .f32⟩
  | .hbm, ⟨62, _⟩ => ⟨S_, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S_, .f32⟩
  | .hbm, ⟨67, _⟩ => ⟨S4096x32, .f32⟩
  | .hbm, ⟨68, _⟩ => ⟨S4096x32, .f32⟩
  | .hbm, ⟨69, _⟩ => ⟨S_, .f32⟩
  | .hbm, ⟨70, _⟩ => ⟨S4096x32, .f32⟩
  | .hbm, ⟨71, _⟩ => ⟨S4096x32, .f32⟩
  | .hbm, ⟨72, _⟩ => ⟨S_, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S32x32, .f32⟩
  | .hbm, ⟨77, _⟩ => ⟨S4096x32, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S_, .f32⟩
  | .hbm, ⟨82, _⟩ => ⟨S4096x32, .f32⟩
  | .hbm, ⟨83, _⟩ => ⟨S4096x32, .f32⟩
  | .hbm, ⟨84, _⟩ => ⟨S_, .f32⟩
  | .hbm, ⟨85, _⟩ => ⟨S4096x32, .f32⟩
  | .hbm, ⟨86, _⟩ => ⟨S4096x32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x32, .f32⟩
  | .hbm, ⟨91, _⟩ => ⟨S4096x32, .f32⟩
  | .hbm, ⟨92, _⟩ => ⟨S_, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S_, .f32⟩
  | .hbm, ⟨97, _⟩ => ⟨S4096x32, .f32⟩
  | .hbm, ⟨98, _⟩ => ⟨S4096x32, .f32⟩
  | .hbm, ⟨99, _⟩ => ⟨S_, .f32⟩
  | .hbm, ⟨100, _⟩ => ⟨S4096x32, .f32⟩
  | .hbm, ⟨101, _⟩ => ⟨S4096x32, .f32⟩
  | .hbm, ⟨102, _⟩ => ⟨S_, .f32⟩
  | .hbm, ⟨103, _⟩ => ⟨S4096x32, .f32⟩
  | .hbm, ⟨104, _⟩ => ⟨S4096x32, .f32⟩
  | .hbm, ⟨105, _⟩ => ⟨S4096x32, .f32⟩
  | .hbm, ⟨106, _⟩ => ⟨S32x1, .f32⟩
  | .hbm, ⟨107, _⟩ => ⟨S4096x1, .f32⟩
  | .hbm, ⟨108, _⟩ => ⟨S1x1, .f32⟩
  | .hbm, ⟨109, _⟩ => ⟨S4096x1, .f32⟩
  | .hbm, ⟨110, _⟩ => ⟨S4096x1, .f32⟩
  | _, _ => ⟨S4096x41600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_cst_11 : Ref sig .tc := ⟨.hbm, 69, rfl⟩
abbrev main_v37 : Ref sig .tc := ⟨.hbm, 70, rfl⟩
abbrev main_v38 : Ref sig .tc := ⟨.hbm, 71, rfl⟩
abbrev main_cst_12 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_cst_16 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v51 : Ref sig .tc := ⟨.hbm, 94, rfl⟩
abbrev main_v52 : Ref sig .tc := ⟨.hbm, 95, rfl⟩
abbrev main_cst_17 : Ref sig .tc := ⟨.hbm, 96, rfl⟩
abbrev main_v53 : Ref sig .tc := ⟨.hbm, 97, rfl⟩
abbrev main_v54 : Ref sig .tc := ⟨.hbm, 98, rfl⟩
abbrev main_cst_18 : Ref sig .tc := ⟨.hbm, 99, rfl⟩
abbrev main_v55 : Ref sig .tc := ⟨.hbm, 100, rfl⟩
abbrev main_v56 : Ref sig .tc := ⟨.hbm, 101, rfl⟩
abbrev main_cst_19 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩

abbrev nD : Nat := 1
abbrev τ : Topo := Topo.v7x

variable {F : FTy → Type} [FloatOps F]

class Facts₀ : Prop where
  transposes_S256x41600_S41600x256_1_0 : S256x41600.Transposes [1, 0] S41600x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41600_S41600x256_S4096x256_1_0_0_1_n_n_wf : DotDims.WF S4096x41600 S41600x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41600_S41600x256_S4096x256_1_0_0_1_n_n : DotDims S4096x41600 S41600x256 S4096x256 where
  lhsContracting := [1]
  rhsContracting := [0]
  lhsNonContracting := [0]
  rhsNonContracting := [1]
  lhsBatch := []
  rhsBatch := []
  wf := dot_S4096x41600_S41600x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Net.lean ====
/-
  The network both programs compute, written once over the extended reals.

  A row of 41600 features meets a 256-unit feature transformer twice (two feature rows, the same weights
  and bias); the two 256-vectors are laid side by side into 512 pre-activations; then three dense layers
  (512 → 32 → 32 → 1) follow, a clipped leaky ramp before each of them.

  The ramp is  c · min(x, 0) + min(1, max(0, x)) + c · (max(x, 1) − 1).  Its three constants are kept as the
  float words they are written with (the same words on both sides), never as numerals.

  Every output row depends on its own input rows only, so the tail is stated for ONE row.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- The word of `+0.0`. -/
abbrev wZero : EReal := Ideal.ofBits .f32 0x00000000#32
/-- The word of `1.0`. -/
abbrev wOne : EReal := Ideal.ofBits .f32 0x3F800000#32
/-- The word of the slope (the float nearest to 0.01). -/
abbrev wSlope : EReal := Ideal.ofBits .f32 0x3C23D70A#32

/-- The clipped leaky ramp: the identity clipped to [0, 1], plus a small slope outside on either side. -/
def ramp (x : EReal) : EReal :=
  wSlope * min x wZero + min wOne (max wZero x) + wSlope * (max x wOne - wOne)

/-- One unit of a dense layer: the inner product of the inputs with the unit's weights, plus its bias. -/
def dense {n : Nat} (h : Fin n → EReal) (w : Fin n → EReal) (b : EReal) : EReal :=
  (∑ k : Fin n, h k * w k) + b

/-- The three dense layers over one row `a` of 512 pre-activations, a ramp before each. -/
def tail (a : Fin 512 → EReal) (W1 : Fin 32 → Fin 512 → EReal) (B1 : Fin 32 → EReal)
    (W2 : Fin 32 → Fin 32 → EReal) (B2 : Fin 32 → EReal) (Wo : Fin 32 → EReal) (Bo : EReal) : EReal :=
  dense (fun k => ramp (dense (fun j => ramp (dense (fun l => ramp (a l)) (W1 j) (B1 j))) (W2 k) (B2 k))) Wo Bo

/-- Row `r` of the 512 pre-activations: unit `l < 256` is the first feature row against weight row `l` plus
    bias `l`; unit `256 + l` is the second feature row against the same weight row and bias. -/
def feat (X1 X2 : (⟨2, ![4096, 41600]⟩ : Shape).Idx → EReal) (W : (⟨2, ![256, 41600]⟩ : Shape).Idx → EReal)
    (b : (⟨1, ![256]⟩ : Shape).Idx → EReal) (r : Fin 4096) (l : Fin 512) : EReal :=
  if h : l.val < 256 then
    (∑ k : Fin 41600, X1 (ix2 r k) * W (ix2 (⟨l.val, h⟩ : Fin 256) k)) + b (ix1 (⟨l.val, h⟩ : Fin 256))
  else
    (∑ k : Fin 41600, X2 (ix2 r k) * W (ix2 (⟨l.val - 256, by have := l.isLt; omega⟩ : Fin 256) k))
      + b (ix1 (⟨l.val - 256, by have := l.isLt; omega⟩ : Fin 256))

/-- The whole network: the [4096, 1] result as one function of the ten argument arrays. -/
def out (X1 X2 : (⟨2, ![4096, 41600]⟩ : Shape).Idx → EReal) (W : (⟨2, ![256, 41600]⟩ : Shape).Idx → EReal)
    (b : (⟨1, ![256]⟩ : Shape).Idx → EReal) (w1 : (⟨2, ![32, 512]⟩ : Shape).Idx → EReal)
    (b1 : (⟨1, ![32]⟩ : Shape).Idx → EReal) (w2 : (⟨2, ![32, 32]⟩ : Shape).Idx → EReal)
    (b2 : (⟨1, ![32]⟩ : Shape).Idx → EReal) (wo : (⟨2, ![1, 32]⟩ : Shape).Idx → EReal)
    (bo : (⟨1, ![1]⟩ : Shape).Idx → EReal) : (⟨2, ![4096, 1]⟩ : Shape).Idx → EReal := fun i =>
  tail (feat X1 X2 W b (i 0)) (fun j l => w1 (ix2 j l)) (fun j => b1 (ix1 j)) (fun k j => w2 (ix2 k j))
    (fun k => b2 (ix1 k)) (fun k => wo (ix2 (0 : Fin 1) k)) (bo (ix1 (0 : Fin 1)))

/-- Term `j` of block `s` of a sum of 65 · 640 terms (the block number read modulo 65, so that every natural
    names a block). -/
abbrev blockIdx (s : Nat) (j : Fin 640) : Fin 41600 :=
  ⟨640 * (s % 65) + j.val, by have := j.isLt; have := Nat.mod_lt s (by norm_num : 65 > 0); omega⟩

/-- A sum over 65 · 640 terms, taken 640 at a time: block `s` holds the terms `640 s … 640 s + 639`. -/
theorem sum_blocks {M : Type*} [AddCommMonoid M] (f : Fin 41600 → M) :
    ∑ k : Fin 41600, f k = ∑ s ∈ Finset.range 65, ∑ j : Fin 640, f (blockIdx s j) := by
  rw [← Fin.sum_univ_eq_sum_range (fun s => ∑ j : Fin 640, f (blockIdx s j)) 65, ← Fintype.sum_prod_type']
  refine (Equiv.sum_comp (finProdFinEquiv (m := 65) (n := 640)) f).symm.trans ?_
  refine Fintype.sum_congr _ _ fun p => congrArg f (Fin.ext ?_)
  show p.2.val + 640 * p.1.val = 640 * (p.1.val % 65) + p.2.val
  rw [Nat.mod_eq_of_lt p.1.isLt]; omega

end Cert.Net

end
-- ==== Proof.RefNet.lean ====
/-
  The reference program computes the network of the specification.

  The reference is read one operation at a time.  Its first ten operations build, for every row, the 512
  pre-activations: two inner products of length 41600 against the same weight rows, the bias added, and the two
  256-wide results laid side by side.  A ramp and a dense layer follow three times.  Each lemma below reads one of
  these stages at an explicit index; the last one puts them together.
-/
import proofs.«148835_j63977832841234_2_alg».proof.Proof.Gen.ReferenceIdeal.Read
import proofs.«148835_j63977832841234_2_alg».proof.Proof.Net

noncomputable section

namespace Cert.RefNet

open Cert.ReferenceIdeal Cert.ReferenceIdeal.Gen Cert.ReferenceIdeal.Read Idealize.ShloMosaic Idealize.ShloMosaic.ValueIdx

/-! ## The 512 pre-activations of a row -/

/-- The first half: feature row `R` of the first array against weight row `c`, plus bias `c`. -/
theorem first_half_at (x0 : (⟨S4096x41600, .f32⟩ : BufTy).Contents (Elt Ideal)) (x2 : (⟨S256x41600, .f32⟩ : BufTy).Contents (Elt Ideal)) (x3 : (⟨S256, .f32⟩ : BufTy).Contents (Elt Ideal))
    (R : Fin 4096) (c : Fin 256) :
    val_main_v4 (F := Ideal) x0 x2 x3 (ix2 R c) = (∑ k : Fin 41600, x0 (ix2 R k) * x2 (ix2 c k)) + x3 (ix1 c) := by
  rw [val_main_v4_apply, Ideal.addf_def, val_main_v1_apply, val_main_v3_apply, val_main_v2_apply]
  refine congrArg₂ (· + ·) (Finset.sum_congr rfl fun k _ => ?_) ?_
  · rw [val_main_v0_apply]
    refine congrArg₂ (· * ·) (congrArg x0 ?_) (congrArg x2 ?_)
    · exact funext fun a => by match a with | ⟨0, _⟩ => rfl | ⟨1, _⟩ => rfl
    · exact funext fun a => by match a with | ⟨0, _⟩ => rfl | ⟨1, _⟩ => rfl
  · exact congrArg x3 (funext fun a => by match a with | ⟨0, _⟩ => rfl)

/-- The second half: the same weights and bias against the second feature array. -/
theorem second_half_at (x1 : (⟨S4096x41600, .f32⟩ : BufTy).Contents (Elt Ideal)) (x2 : (⟨S256x41600, .f32⟩ : BufTy).Contents (Elt Ideal)) (x3 : (⟨S256, .f32⟩ : BufTy).Contents (Elt Ideal))
    (R : Fin 4096) (c : Fin 256) :
    val_main_v9 (F := Ideal) x1 x2 x3 (ix2 R c) = (∑ k : Fin 41600, x1 (ix2 R k) * x2 (ix2 c k)) + x3 (ix1 c) := by
  rw [val_main_v9_apply, Ideal.addf_def, val_main_v6_apply, val_main_v8_apply, val_main_v7_apply]
  refine congrArg₂ (· + ·) (Finset.sum_congr rfl fun k _ => ?_) ?_
  · rw [val_main_v5_apply]
    refine congrArg₂ (· * ·) (congrArg x1 ?_) (congrArg x2 ?_)
    · exact funext fun a => by match a with | ⟨0, _⟩ => rfl | ⟨1, _⟩ => rfl
    · exact funext fun a => by match a with | ⟨0, _⟩ => rfl | ⟨1, _⟩ => rfl
  · exact congrArg x3 (funext fun a => by match a with | ⟨0, _⟩ => rfl)

/-- The two halves side by side: column `l < 256` is column `l` of the first half, column `l ≥ 256` is column
    `l − 256` of the second. -/
theorem preact_at (x0 x1 : (⟨S4096x41600, .f32⟩ : BufTy).Contents (Elt Ideal)) (x2 : (⟨S256x41600, .f32⟩ : BufTy).Contents (Elt Ideal)) (x3 : (⟨S256, .f32⟩ : BufTy).Contents (Elt Ideal))
    (R : Fin 4096) (l : Fin 512) :
    val_main_v10 (F := Ideal) x0 x1 x2 x3 (ix2 R l) = Net.feat x0 x1 x2 x3 R l := by
  unfold Net.feat val_main_v10
  split
  · next h =>
    refine (concatenate_pair_apply_left (1 : Fin S4096x512.rank) _ _ concatenates_S4096x256_S4096x256_S4096x512_d1
      (ix2 R l) rfl (ix2 R (⟨l.val, h⟩ : Fin 256)) (fun b => by match b with | ⟨0, _⟩ => rfl | ⟨1, _⟩ => rfl)).trans ?_
    exact first_half_at x0 x2 x3 R ⟨l.val, h⟩
  · next h =>
    have h' : 256 ≤ l.val := Nat.le_of_not_lt h
    refine (concatenate_pair_apply_right (1 : Fin S4096x512.rank) _ _ concatenates_S4096x256_S4096x256_S4096x512_d1
      (ix2 R l) rfl rfl (ix2 R (⟨l.val - 256, by have := l.isLt; omega⟩ : Fin 256))
      (fun b hb => by
        match b with
        | ⟨0, _⟩ => rfl
        | ⟨1, _⟩ => exact absurd rfl hb)
      (by show l.val - 256 + 256 = l.val; omega)).trans ?_
    exact second_half_at x1 x2 x3 R ⟨l.val - 256, by have := l.isLt; omega⟩

/-! ## The ramp and the dense layers -/

/-- The first ramp, at any index of the pre-activations. -/
theorem ramp1_at (x0 x1 : (⟨S4096x41600, .f32⟩ : BufTy).Contents (Elt Ideal)) (x2 : (⟨S256x41600, .f32⟩ : BufTy).Contents (Elt Ideal)) (x3 : (⟨S256, .f32⟩ : BufTy).Contents (Elt Ideal))
    (i : S4096x512.Idx) :
    val_main_v23 (F := Ideal) x0 x1 x2 x3 i = Net.ramp (val_main_v10 (F := Ideal) x0 x1 x2 x3 i) := by
  rw [val_main_v23_apply, val_main_v16_apply, val_main_v14_apply, val_main_v13_apply, val_main_cst_0_apply,
    val_main_v12_apply, val_main_v11_apply, val_main_cst_apply, val_main_v15_apply, val_main_call0_v4_apply,
    val_main_call0_v3_apply, val_main_cst_2_apply, val_main_call0_v2_apply, val_main_call0_v1_apply,
    val_main_call0_v0_apply, val_main_cst_1_apply, val_main_v22_apply, val_main_v21_apply, val_main_cst_5_apply,
    val_main_v20_apply, val_main_v18_apply, val_main_v17_apply, val_main_cst_3_apply, val_main_v19_apply,
    val_main_cst_4_apply]
  rfl

/-- The first dense layer: unit `j` of row `R` is the inner product of the row's 512 ramped pre-activations with
    weight row `j`, plus bias `j`. -/
theorem dense1_at (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal))
    (R : Fin 4096) (j : Fin 32) :
    val_main_v28 (F := Ideal) x0 x1 x2 x3 x4 x5 (ix2 R j)
      = Net.dense (fun l : Fin 512 => val_main_v23 (F := Ideal) x0 x1 x2 x3 (ix2 R l)) (fun l : Fin 512 => x4 (ix2 j l)) (x5 (ix1 j)) := by
  rw [val_main_v28_apply, Ideal.addf_def, val_main_v25_apply, val_main_v27_apply, val_main_v26_apply]
  unfold Net.dense
  refine congrArg₂ (· + ·) (Finset.sum_congr rfl fun k _ => ?_) ?_
  · rw [val_main_v24_apply]
    refine congrArg₂ (· * ·) (congrArg (val_main_v23 (F := Ideal) x0 x1 x2 x3) ?_) (congrArg x4 ?_)
    · exact funext fun a => by match a with | ⟨0, _⟩ => rfl | ⟨1, _⟩ => rfl
    · exact funext fun a => by match a with | ⟨0, _⟩ => rfl | ⟨1, _⟩ => rfl
  · exact congrArg x5 (funext fun a => by match a with | ⟨0, _⟩ => rfl)

/-- The second ramp. -/
theorem ramp2_at (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal))
    (i : S4096x32.Idx) :
    val_main_v41 (F := Ideal) x0 x1 x2 x3 x4 x5 i = Net.ramp (val_main_v28 (F := Ideal) x0 x1 x2 x3 x4 x5 i) := by
  rw [val_main_v41_apply, val_main_v34_apply, val_main_v32_apply, val_main_v31_apply, val_main_cst_7_apply,
    val_main_v30_apply, val_main_v29_apply, val_main_cst_6_apply, val_main_v33_apply, val_main_call1_v4_apply,
    val_main_call1_v3_apply, val_main_cst_9_apply, val_main_call1_v2_apply, val_main_call1_v1_apply,
    val_main_call1_v0_apply, val_main_cst_8_apply, val_main_v40_apply, val_main_v39_apply, val_main_cst_12_apply,
    val_main_v38_apply, val_main_v36_apply, val_main_v35_apply, val_main_cst_10_apply, val_main_v37_apply,
    val_main_cst_11_apply]
  rfl

/-- The second dense layer (32 → 32). -/
theorem dense2_at (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (R : Fin 4096) (k : Fin 32) :
    val_main_v46 (F := Ideal) x0 x1 x2 x3 x4 x5 x6 x7 (ix2 R k)
      = Net.dense (fun j : Fin 32 => val_main_v41 (F := Ideal) x0 x1 x2 x3 x4 x5 (ix2 R j)) (fun j : Fin 32 => x6 (ix2 k j)) (x7 (ix1 k)) := by
  rw [val_main_v46_apply, Ideal.addf_def, val_main_v43_apply, val_main_v45_apply, val_main_v44_apply]
  unfold Net.dense
  refine congrArg₂ (· + ·) (Finset.sum_congr rfl fun j _ => ?_) ?_
  · rw [val_main_v42_apply]
    refine congrArg₂ (· * ·) (congrArg (val_main_v41 (F := Ideal) x0 x1 x2 x3 x4 x5) ?_) (congrArg x6 ?_)
    · exact funext fun a => by match a with | ⟨0, _⟩ => rfl | ⟨1, _⟩ => rfl
    · exact funext fun a => by match a with | ⟨0, _⟩ => rfl | ⟨1, _⟩ => rfl
  · exact congrArg x7 (funext fun a => by match a with | ⟨0, _⟩ => rfl)

/-- The third ramp. -/
theorem ramp3_at (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (i : S4096x32.Idx) :
    val_main_v59 (F := Ideal) x0 x1 x2 x3 x4 x5 x6 x7 i = Net.ramp (val_main_v46 (F := Ideal) x0 x1 x2 x3 x4 x5 x6 x7 i) := by
  rw [val_main_v59_apply, val_main_v52_apply, val_main_v50_apply, val_main_v49_apply, val_main_cst_14_apply,
    val_main_v48_apply, val_main_v47_apply, val_main_cst_13_apply, val_main_v51_apply, val_main_call2_v4_apply,
    val_main_call2_v3_apply, val_main_cst_16_apply, val_main_call2_v2_apply, val_main_call2_v1_apply,
    val_main_call2_v0_apply, val_main_cst_15_apply, val_main_v58_apply, val_main_v57_apply, val_main_cst_19_apply,
    val_main_v56_apply, val_main_v54_apply, val_main_v53_apply, val_main_cst_17_apply, val_main_v55_apply,
    val_main_cst_18_apply]
  rfl

/-- The output layer (32 → 1): the one unit of row `R`. -/
theorem dense3_at (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal))
    (R : Fin 4096) :
    val_main_v64 (F := Ideal) x0 x1 x2 x3 x4 x5 x6 x7 x8 x9 (ix2 R (0 : Fin 1))
      = Net.dense (fun k : Fin 32 => val_main_v59 (F := Ideal) x0 x1 x2 x3 x4 x5 x6 x7 (ix2 R k)) (fun k : Fin 32 => x8 (ix2 (0 : Fin 1) k)) (x9 (ix1 (0 : Fin 1))) := by
  rw [val_main_v64_apply, Ideal.addf_def, val_main_v61_apply, val_main_v63_apply, val_main_v62_apply]
  unfold Net.dense
  refine congrArg₂ (· + ·) (Finset.sum_congr rfl fun k _ => ?_) ?_
  · rw [val_main_v60_apply]
    refine congrArg₂ (· * ·) (congrArg (val_main_v59 (F := Ideal) x0 x1 x2 x3 x4 x5 x6 x7) ?_) (congrArg x8 ?_)
    · exact funext fun a => by match a with | ⟨0, _⟩ => rfl | ⟨1, _⟩ => rfl
    · exact funext fun a => by match a with | ⟨0, _⟩ => rfl | ⟨1, _⟩ => rfl
  · exact congrArg x9 (funext fun a => by match a with | ⟨0, _⟩ => rfl)

/-! ## The whole reference -/

/-- The reference's result is the network of the specification. -/
theorem ref_eq (x0 x1 : (⟨S4096x41600, .f32⟩ : BufTy).Contents (Elt Ideal)) (x2 : (⟨S256x41600, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal)) :
    Cert.ReferenceIdeal.Read.val_main_v64 (F := Ideal) x0 x1 x2 x3 x4 x5 x6 x7 x8 x9 = Cert.Net.out x0 x1 x2 x3 x4 x5 x6 x7 x8 x9 := by
  funext i
  -- the second axis has extent one: every index is `(R, 0)`
  obtain ⟨R, rfl⟩ : ∃ R : Fin 4096, i = ix2 R (0 : Fin 1) := by
    have h1 : (i 1).val = 0 := by have := idx2_lt1 i; omega
    exact ⟨i 0, funext fun a => by
      match a with
      | ⟨0, _⟩ => rfl
      | ⟨1, _⟩ => exact Fin.ext h1⟩
  refine (dense3_at x0 x1 x2 x3 x4 x5 x6 x7 x8 x9 R).trans ?_
  show _ = Net.tail (Net.feat x0 x1 x2 x3 R) (fun j l => x4 (ix2 j l)) (fun j => x5 (ix1 j)) (fun k j => x6 (ix2 k j))
    (fun k => x7 (ix1 k)) (fun k => x8 (ix2 (0 : Fin 1) k)) (x9 (ix1 (0 : Fin 1)))
  unfold Net.tail
  refine congrArg (fun h : Fin 32 → EReal => Net.dense h _ _) (funext fun k => ?_)
  refine (ramp3_at x0 x1 x2 x3 x4 x5 x6 x7 (ix2 R k)).trans (congrArg Net.ramp ?_)
  refine (dense2_at x0 x1 x2 x3 x4 x5 x6 x7 R k).trans ?_
  refine congrArg (fun h : Fin 32 → EReal => Net.dense h _ _) (funext fun j => ?_)
  refine (ramp2_at x0 x1 x2 x3 x4 x5 (ix2 R j)).trans (congrArg Net.ramp ?_)
  refine (dense1_at x0 x1 x2 x3 x4 x5 R j).trans ?_
  refine congrArg (fun h : Fin 512 → EReal => Net.dense h _ _) (funext fun l => ?_)
  exact (ramp1_at x0 x1 x2 x3 (ix2 R l)).trans (congrArg Net.ramp (preact_at x0 x1 x2 x3 R l))

end Cert.RefNet

end
-- ==== Proof.Pieces.lean ====
/-
  What one grid point leaves in the carried accumulator and, at the last feature tile, in the result block.

  The accumulator is 512 × 512: its left half collects the first feature row's products, its right half the
  second's. A point adds its tile's 512 × 256 partial products to each half; the first tile of a row tile does so
  over a zero fill it has just stored. At the last tile the 512 pre-activations of every row go through the three
  dense layers and the 512 × 1 result block is stored whole.
-/
import proofs.«148835_j63977832841234_2_alg».proof.Proof.Gen.KernelIdeal.Frame
import Idealize.ShloMosaic.Lib.Pipeline.Value
import Idealize.ShloMosaic.Lib.ValueIdx
import Idealize.ShloMosaic.Lib.Tactic

noncomputable section

namespace Cert.Pieces

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0] : Fin 2 → Nat) = fun _ => 0 := funext fun a => by fin_cases a <;> rfl

/-- The left half of the accumulator (columns 0 … 255). -/
abbrev rL : Rect S512x512 := Rect.unit ![0, 0] S512x256.size inb_S512x512_S512x256_0_0
/-- The right half of the accumulator (columns 256 … 511). -/
abbrev rR : Rect S512x512 := Rect.unit ![0, 256] S512x256.size inb_S512x512_S512x256_0_256

/-- Two 512 × 256 arrays side by side. -/
def halves (P3 P4 : Vec F S512x256 .f32) : Vec F S512x512 .f32 := fun y =>
  if h : (y 1).val < 256 then P3 (ix2 (y 0) (⟨(y 1).val, h⟩ : Fin 256))
  else P4 (ix2 (y 0) (⟨(y 1).val - 256, by have h1 : (y 1).val < 512 := (y 1).isLt; omega⟩ : Fin 256))

/-- The right half stored last over the left half (over anything stored before) leaves the two side by side. -/
theorem canon_halves (P3 P4 : Vec F S512x256 .f32) (L : List (View.Piece (Elt F) S512x512 .f32)) :
    View.canon ((⟨rR, P4⟩ : View.Piece (Elt F) S512x512 .f32) :: ⟨rL, P3⟩ :: L) = halves P3 P4 := by
  funext y
  unfold halves
  have hy1 : (y 1).val < 512 := (y 1).isLt
  by_cases h : (y 1).val < 256
  · rw [dif_pos h, View.canon_cons_of_not_mem _ _ (y := y) (by
      rw [Rect.mem_set_unit]; intro hm
      have h1 : (256 : Nat) ≤ (y 1).val := (hm 1).1
      omega)]
    have e : rL.emb (ix2 (y 0) (⟨(y 1).val, h⟩ : Fin 256)) = y := funext fun a => Fin.ext (by
      match a with
      | ⟨0, _⟩ => show 0 + 1 * (y 0).val = (y 0).val; omega
      | ⟨1, _⟩ => show 0 + 1 * (y 1).val = (y 1).val; omega)
    conv_lhs => rw [← e]
    exact View.canon_cons_emb rL P3 L _
  · rw [dif_neg h]
    have e : rR.emb (ix2 (y 0) (⟨(y 1).val - 256, by omega⟩ : Fin 256)) = y := funext fun a => Fin.ext (by
      match a with
      | ⟨0, _⟩ => show 0 + 1 * (y 0).val = (y 0).val; omega
      | ⟨1, _⟩ => show 256 + 1 * ((y 1).val - 256) = (y 1).val; omega)
    conv_lhs => rw [← e]
    exact View.canon_cons_emb rR P4 _ _

/-- The two halves cover the accumulator. -/
theorem cover_halves (P3 P4 : Vec F S512x256 .f32) (L : List (View.Piece (Elt F) S512x512 .f32)) (y : S512x512.Idx) :
    ∃ p ∈ ((⟨rR, P4⟩ : View.Piece (Elt F) S512x512 .f32) :: ⟨rL, P3⟩ :: L), y ∈ p.1.set := by
  have hy0 : (y 0).val < 512 := (y 0).isLt
  have hy1 : (y 1).val < 512 := (y 1).isLt
  by_cases h : (y 1).val < 256
  · refine ⟨⟨rL, P3⟩, by simp, ?_⟩
    show y ∈ rL.set
    rw [Rect.mem_set_unit]; intro a
    match a with
    | ⟨0, _⟩ => show (0 : Nat) ≤ (y 0).val ∧ (y 0).val < 0 + 512; omega
    | ⟨1, _⟩ => show (0 : Nat) ≤ (y 1).val ∧ (y 1).val < 0 + 256; omega
  · refine ⟨⟨rR, P4⟩, by simp, ?_⟩
    show y ∈ rR.set
    rw [Rect.mem_set_unit]; intro a
    match a with
    | ⟨0, _⟩ => show (0 : Nat) ≤ (y 0).val ∧ (y 0).val < 0 + 512; omega
    | ⟨1, _⟩ => show (256 : Nat) ≤ (y 1).val ∧ (y 1).val < 256 + 256; omega

/-- The weight rows of the point's feature tile: 640 rows of the transposed weights from row 640 · (feature tile). -/
def wtile (i : grid0.Coords) (x2 : Vec F S41600x256 .bf16) : Vec F S640x256 .bf16 :=
  View.ld x2 (Rect.unit (s := S41600x256) (k0_off1 i) S640x256.size (k0_off1_inb i))

/-- One accumulation step: each half of `acc` plus the tile's partial products of its feature block. -/
def accStep (i : grid0.Coords) (x0 x1 : Vec F S512x640 .f32) (x2 : Vec F S41600x256 .bf16) (acc : Vec F S512x512 .f32) :
    Vec F S512x512 .f32 :=
  halves (k0_pay3 x0 (wtile i x2) (View.ld acc rL)) (k0_pay4 x1 (wtile i x2) (View.ld acc rR))

/-- A later tile of a row tile: one accumulation step over what the tile before left. -/
theorem sout_B (c : Dev nD) (i : grid0.Coords) (arg2 : Memref sig .tc .vmem S512x640 .f32) (harg2 : arg2.IsWhole) (arg3 : Memref sig .tc .vmem S512x640 .f32) (harg3 : arg3.IsWhole) (arg4 : Memref sig .tc .vmem S41600x256 .bf16) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : ¬cond0_1 i) (x0 : Vec F S512x640 .f32) (x1 : Vec F S512x640 .f32) (x2 : Vec F S41600x256 .bf16) (x3 : Vec F S1x256 .f32) (x4 : Vec F S32x512 .f32) (x5 : Vec F S1x32 .f32) (x6 : Vec F S32x32 .f32) (x7 : Vec F S1x32 .f32) (x8 : Vec F S1x32 .f32) (x9 : Vec F S1x1 .f32) (xs0 : Vec F S512x512 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accStep i x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  simp only [View.readAt_eq_ld, harg2.read_unread, harg3.read_unread, harg4.read_unread, harg13.read_unread,
    View.ld_unit_zero (S := S512x640) hz]
  exact canon_halves _ _ []

/-- The last tile of a row tile leaves the same accumulation step in the accumulator. -/
theorem sout_C (c : Dev nD) (i : grid0.Coords) (arg2 : Memref sig .tc .vmem S512x640 .f32) (harg2 : arg2.IsWhole) (arg3 : Memref sig .tc .vmem S512x640 .f32) (harg3 : arg3.IsWhole) (arg4 : Memref sig .tc .vmem S41600x256 .bf16) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : cond0_1 i) (x0 : Vec F S512x640 .f32) (x1 : Vec F S512x640 .f32) (x2 : Vec F S41600x256 .bf16) (x3 : Vec F S1x256 .f32) (x4 : Vec F S32x512 .f32) (x5 : Vec F S1x32 .f32) (x6 : Vec F S32x32 .f32) (x7 : Vec F S1x32 .f32) (x8 : Vec F S1x32 .f32) (x9 : Vec F S1x1 .f32) (xs0 : Vec F S512x512 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = accStep i x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  simp only [View.readAt_eq_ld, harg2.read_unread, harg3.read_unread, harg4.read_unread, harg13.read_unread,
    View.ld_unit_zero (S := S512x640) hz]
  exact canon_halves _ _ []

/-- The whole accumulator. -/
abbrev rW : Rect S512x512 := Rect.unit ![0, 0] S512x512.size inb_S512x512_S512x512_0_0

/-- Read back through its left half, a fill of the whole accumulator is the fill there. -/
theorem readCov_fill_L {sig' : RefSig} {κ : Kind} {sp : Space} (v : View sig' κ sp S512x512 .f32) (Z : Vec F S512x512 .f32) :
    v.readCov [(⟨rW, Z⟩ : View.Piece (Elt F) S512x512 .f32)] rL.toLoadRect = View.ld Z rL := by
  rw [View.readCov_eq_canon_ld _ _ _ (fun y => ⟨_, List.mem_singleton_self _, View.mem_set_unit_zero hz inb_S512x512_S512x512_0_0 y⟩),
    View.canon_unit_zero hz]

/-- Read back through its right half after the left half has been stored over, the fill is still the fill there. -/
theorem readCov_fill_R {sig' : RefSig} {κ : Kind} {sp : Space} (v : View sig' κ sp S512x512 .f32) (Z : Vec F S512x512 .f32)
    (P : Vec F S512x256 .f32) :
    v.readCov [(⟨rL, P⟩ : View.Piece (Elt F) S512x512 .f32), ⟨rW, Z⟩] rR.toLoadRect = View.ld Z rR := by
  rw [View.readCov_eq_canon_ld _ _ _ (fun y => ⟨⟨rW, Z⟩, by simp, View.mem_set_unit_zero hz inb_S512x512_S512x512_0_0 y⟩)]
  funext j
  show View.canon [(⟨rL, P⟩ : View.Piece (Elt F) S512x512 .f32), ⟨rW, Z⟩] (rR.idx j) = Z (rR.idx j)
  rw [View.canon_cons_of_not_mem _ _ (by
    show rR.idx j ∉ rL.set
    rw [Rect.mem_set_unit]; intro hm
    have h1 : ((rR.idx j) 1 : Nat) < 0 + 256 := (hm 1).2
    have h2 : ((rR.idx j) 1 : Nat) = 256 + 1 * (j 1).val := rfl
    omega), View.canon_unit_zero hz]

/-- The first tile of a row tile: the accumulation step over the zero fill it has just stored. -/
theorem sout_A (c : Dev nD) (i : grid0.Coords) (arg2 : Memref sig .tc .vmem S512x640 .f32) (harg2 : arg2.IsWhole) (arg3 : Memref sig .tc .vmem S512x640 .f32) (harg3 : arg3.IsWhole) (arg4 : Memref sig .tc .vmem S41600x256 .bf16) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : cond0_0 i) (hc1 : ¬cond0_1 i) (x0 : Vec F S512x640 .f32) (x1 : Vec F S512x640 .f32) (x2 : Vec F S41600x256 .bf16) (x3 : Vec F S1x256 .f32) (x4 : Vec F S32x512 .f32) (x5 : Vec F S1x32 .f32) (x6 : Vec F S32x32 .f32) (x7 : Vec F S1x32 .f32) (x8 : Vec F S1x32 .f32) (x9 : Vec F S1x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = accStep i x0 x1 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  simp only [View.readAt_eq_ld, harg2.read_unread, harg3.read_unread, harg4.read_unread,
    View.ld_unit_zero (S := S512x640) hz]
  rw [readCov_fill_L (F := F) arg13.view, readCov_fill_R (F := F) arg13.view]
  exact canon_halves (F := F) _ _ _

/-- The three dense layers over the accumulator `S` (bias row `x3` added first) as the body computes them. -/
def tailPay (x3 : Vec F S1x256 .f32) (S : Vec F S512x512 .f32) (x4 : Vec F S32x512 .f32) (x5 : Vec F S1x32 .f32)
    (x6 : Vec F S32x32 .f32) (x7 x8 : Vec F S1x32 .f32) (x9 : Vec F S1x1 .f32) : Vec F S512x1 .f32 :=
  k0_pay5 (k0_pay8 (k0_pay6 x3 S x4 x5) (k0_pay7 x3 S x4 x5) x6 x7 x8) (k0_pay9 x9)

/-- The last tile of a row tile stores, as the result block, the dense layers over the accumulator it has just
    completed. -/
theorem out_C (c : Dev nD) (i : grid0.Coords) (arg2 : Memref sig .tc .vmem S512x640 .f32) (harg2 : arg2.IsWhole) (arg3 : Memref sig .tc .vmem S512x640 .f32) (harg3 : arg3.IsWhole) (arg4 : Memref sig .tc .vmem S41600x256 .bf16) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x1 .f32) (harg11 : arg11.IsWhole) (arg12 : Memref sig .tc .vmem S512x1 .f32) (harg12 : arg12.IsWhole) (arg13 : Memref sig .tc .vmem S512x512 .f32) (harg13 : arg13.IsWhole) (hc0 : ¬cond0_0 i) (hc1 : cond0_1 i) (x0 : Vec F S512x640 .f32) (x1 : Vec F S512x640 .f32) (x2 : Vec F S41600x256 .bf16) (x3 : Vec F S1x256 .f32) (x4 : Vec F S32x512 .f32) (x5 : Vec F S1x32 .f32) (x6 : Vec F S32x32 .f32) (x7 : Vec F S1x32 .f32) (x8 : Vec F S1x32 .f32) (x9 : Vec F S1x1 .f32) (xs0 : Vec F S512x512 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = tailPay x3 (accStep i x0 x1 x2 xs0) x4 x5 x6 x7 x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg10.read_unread, harg11.read_unread,
    harg13.read_unread, View.ld_unit_zero (S := S512x640) hz, View.ld_unit_zero (S := S1x256) hz,
    View.ld_unit_zero (S := S32x512) hz, View.ld_unit_zero (S := S1x32) hz, View.ld_unit_zero (S := S32x32) hz,
    View.ld_unit_zero (S := S1x1) hz]
  rw [View.readCov_eq_canon_ld arg13.view _ _ (cover_halves (F := F) _ _ []), View.ld_unit_zero (S := S512x512) hz,
    canon_halves (F := F)]
  rfl

end Cert.Pieces

end
-- ==== Proof.Blocks.lean ====
/-
  What the kernel's windows hold at a grid point, as entries of the argument arrays.

  The grid has 8 · 65 points; point `t` works on row tile `t / 65` (512 rows) and feature tile `t % 65`
  (640 features). The two feature windows move with the point; every other window is its whole array at
  every point. Before the grid starts the weights are transposed (and narrowed, which changes nothing over
  the extended reals) and the four bias vectors are given a leading unit axis.
-/
import proofs.«148835_j63977832841234_2_alg».proof.Proof.Gen.KernelIdeal.Frame
import Idealize.ShloMosaic.Lib.Pipeline.Value
import Idealize.ShloMosaic.Lib.ValueIdx
import Idealize.ShloMosaic.Lib.StableHlo.Run

noncomputable section

namespace Cert.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The ten argument arrays, at their literal types -/
abbrev A0 (c : Dev nD) : Vec Ideal S4096x41600 .f32 := m ((c : Thread nD τ).loc main_arg0)
abbrev A1 (c : Dev nD) : Vec Ideal S4096x41600 .f32 := m ((c : Thread nD τ).loc main_arg1)
abbrev A2 (c : Dev nD) : Vec Ideal S256x41600 .f32 := m ((c : Thread nD τ).loc main_arg2)
abbrev A3 (c : Dev nD) : Vec Ideal S256 .f32 := m ((c : Thread nD τ).loc main_arg3)
abbrev A4 (c : Dev nD) : Vec Ideal S32x512 .f32 := m ((c : Thread nD τ).loc main_arg4)
abbrev A5 (c : Dev nD) : Vec Ideal S32 .f32 := m ((c : Thread nD τ).loc main_arg5)
abbrev A6 (c : Dev nD) : Vec Ideal S32x32 .f32 := m ((c : Thread nD τ).loc main_arg6)
abbrev A7 (c : Dev nD) : Vec Ideal S32 .f32 := m ((c : Thread nD τ).loc main_arg7)
abbrev A8 (c : Dev nD) : Vec Ideal S1x32 .f32 := m ((c : Thread nD τ).loc main_arg8)
abbrev A9 (c : Dev nD) : Vec Ideal S1 .f32 := m ((c : Thread nD τ).loc main_arg9)

/-- The printed index maps over the grid: the feature windows sit at (row tile, feature tile), the result window
    at (row tile, 0), every other window at (0, 0). -/
theorem idx_facts : ∀ t : Fin cfg0.N,
    win0_0.index t (0 : Fin 2) = t.val / 65 ∧ win0_0.index t (1 : Fin 2) = t.val % 65
    ∧ win0_1.index t (0 : Fin 2) = t.val / 65 ∧ win0_1.index t (1 : Fin 2) = t.val % 65
    ∧ win0_10.index t (0 : Fin 2) = t.val / 65 ∧ win0_10.index t (1 : Fin 2) = 0 :=
  (by decide +kernel : ∀ t : Fin grid0.N, _)

theorem idx_zero : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `r` of row tile `t / 65`. -/
abbrev rowAt (t : Fin cfg0.N) (r : Fin 512) : Fin 4096 :=
  ⟨512 * (t.val / 65) + r.val, by have := t.isLt; have : cfg0.N = 520 := N_0; have := r.isLt; omega⟩

/-- Feature `j` of feature tile `t % 65`. -/
abbrev featAt (t : Fin cfg0.N) (j : Fin 640) : Fin 41600 :=
  ⟨640 * (t.val % 65) + j.val, by have := j.isLt; have := Nat.mod_lt t.val (by norm_num : 65 > 0); omega⟩

/-- The first feature window at point `t`: rows of tile `t / 65`, features of tile `t % 65`. -/
theorem iblk0_apply (c : Dev nD) (t : Fin cfg0.N) (r : Fin 512) (j : Fin 640) :
    (iblk m c 0 t : Vec Ideal S512x640 .f32) (ix2 r j)
      = m ((c : Thread nD τ).loc main_arg0) (ix2 (rowAt t r) (featAt t j)) := by
  obtain ⟨e0, e1, -, -, -, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * r.val = 512 * (t.val / 65) + r.val; omega
  | ⟨1, _⟩ => show win0_0.index t (1 : Fin 2) * 640 + 1 * j.val = 640 * (t.val % 65) + j.val; omega

/-- The second feature window, likewise. -/
theorem iblk1_apply (c : Dev nD) (t : Fin cfg0.N) (r : Fin 512) (j : Fin 640) :
    (iblk m c 1 t : Vec Ideal S512x640 .f32) (ix2 r j)
      = m ((c : Thread nD τ).loc main_arg1) (ix2 (rowAt t r) (featAt t j)) := by
  obtain ⟨-, -, e0, e1, -, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * r.val = 512 * (t.val / 65) + r.val; omega
  | ⟨1, _⟩ => show win0_1.index t (1 : Fin 2) * 640 + 1 * j.val = 640 * (t.val % 65) + j.val; omega

/-! ## The windows that are their whole array at every point -/

theorem iblk2_eq (c : Dev nD) (t : Fin cfg0.N) :
    (iblk m c 2 t : Vec Ideal S41600x256 .bf16) = V m c main_v1 := by
  obtain ⟨e0, e1, -, -, -, -, -, -, -, -, -, -, -, -, -, -⟩ := idx_zero t
  funext y
  unfold iblk
  rw [View.read_apply]
  show V m c main_v1 _ = _
  refine congrArg _ (funext fun a => Fin.ext ?_)
  match a with
  | ⟨0, _⟩ => show win0_2.index t (0 : Fin 2) * 41600 + 1 * (y 0).val = (y 0).val; omega
  | ⟨1, _⟩ => show win0_2.index t (1 : Fin 2) * 256 + 1 * (y 1).val = (y 1).val; omega

theorem iblk3_eq (c : Dev nD) (t : Fin cfg0.N) :
    (iblk m c 3 t : Vec Ideal S1x256 .f32) = V m c main_v2 := by
  obtain ⟨-, -, e0, e1, -, -, -, -, -, -, -, -, -, -, -, -⟩ := idx_zero t
  funext y
  unfold iblk
  rw [View.read_apply]
  show V m c main_v2 _ = _
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem iblk4_eq (c : Dev nD) (t : Fin cfg0.N) :
    (iblk m c 4 t : Vec Ideal S32x512 .f32) = V m c main_arg4 := by
  obtain ⟨-, -, -, -, e0, e1, -, -, -, -, -, -, -, -, -, -⟩ := idx_zero t
  funext y
  unfold iblk
  rw [View.read_apply]
  show V m c main_arg4 _ = _
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 512 + 1 * (y 1).val = (y 1).val; omega

theorem iblk5_eq (c : Dev nD) (t : Fin cfg0.N) :
    (iblk m c 5 t : Vec Ideal S1x32 .f32) = V m c main_v3 := by
  obtain ⟨-, -, -, -, -, -, e0, e1, -, -, -, -, -, -, -, -⟩ := idx_zero t
  funext y
  unfold iblk
  rw [View.read_apply]
  show V m c main_v3 _ = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 32 + 1 * (y 1).val = (y 1).val; omega

theorem iblk6_eq (c : Dev nD) (t : Fin cfg0.N) :
    (iblk m c 6 t : Vec Ideal S32x32 .f32) = V m c main_arg6 := by
  obtain ⟨-, -, -, -, -, -, -, -, e0, e1, -, -, -, -, -, -⟩ := idx_zero t
  funext y
  unfold iblk
  rw [View.read_apply]
  show V m c main_arg6 _ = _
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 32 + 1 * (y 1).val = (y 1).val; omega

theorem iblk7_eq (c : Dev nD) (t : Fin cfg0.N) :
    (iblk m c 7 t : Vec Ideal S1x32 .f32) = V m c main_v4 := by
  obtain ⟨-, -, -, -, -, -, -, -, -, -, e0, e1, -, -, -, -⟩ := idx_zero t
  funext y
  unfold iblk
  rw [View.read_apply]
  show V m c main_v4 _ = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 32 + 1 * (y 1).val = (y 1).val; omega

theorem iblk8_eq (c : Dev nD) (t : Fin cfg0.N) :
    (iblk m c 8 t : Vec Ideal S1x32 .f32) = V m c main_arg8 := by
  obtain ⟨-, -, -, -, -, -, -, -, -, -, -, -, e0, e1, -, -⟩ := idx_zero t
  funext y
  unfold iblk
  rw [View.read_apply]
  show V m c main_arg8 _ = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 32 + 1 * (y 1).val = (y 1).val; omega

theorem iblk9_eq (c : Dev nD) (t : Fin cfg0.N) :
    (iblk m c 9 t : Vec Ideal S1x1 .f32) = V m c main_v5 := by
  obtain ⟨-, -, -, -, -, -, -, -, -, -, -, -, -, -, e0, e1⟩ := idx_zero t
  funext y
  unfold iblk
  rw [View.read_apply]
  show V m c main_v5 _ = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## What the operations before the grid leave -/

/-- The transposed weights: entry (k, l) is weight row `l` at feature `k` (narrowing changes nothing here). -/
theorem V_v1_apply (c : Dev nD) (k : Fin 41600) (l : Fin 256) :
    (V m c main_v1 : Vec Ideal S41600x256 .bf16) (ix2 k l) = m ((c : Thread nD τ).loc main_arg2) (ix2 l k) := by
  have e : (V m c main_v1 : Vec Ideal S41600x256 .bf16)
      = (truncf (F := Ideal) .bf16 (transpose S41600x256 [1, 0] (m ((c : Thread nD τ).loc main_arg2) : Vec Ideal S256x41600 .f32) transposes_S256x41600_S41600x256_1_0) bitsLt_bf16_f32 : Vec Ideal S41600x256 .bf16) := by
    dsimp only [V, hostOps0]; after_results; try rfl
  rw [e]
  show transpose S41600x256 [1, 0] (m ((c : Thread nD τ).loc main_arg2) : Vec Ideal S256x41600 .f32) transposes_S256x41600_S41600x256_1_0 (ix2 k l) = _
  exact transpose_apply [1, 0] _ transposes_S256x41600_S41600x256_1_0 (ix2 k l) (ix2 l k) (fun b => match b with
    | ⟨0, _⟩ => rfl
    | ⟨1, _⟩ => rfl)

/-- A bias vector given a leading unit axis: entry (0, l) is entry `l`. -/
theorem V_v2_apply (c : Dev nD) (l : Fin 256) :
    (V m c main_v2 : Vec Ideal S1x256 .f32) (ix2 (0 : Fin 1) l) = m ((c : Thread nD τ).loc main_arg3) (ix1 l) := by
  have e : (V m c main_v2 : Vec Ideal S1x256 .f32) = (shapeCast S1x256 (m ((c : Thread nD τ).loc main_arg3)) shapeCasts_S256_S1x256 : Vec Ideal S1x256 .f32) := by
    dsimp only [V, hostOps0]; after_results; try rfl
  rw [e]
  exact shapeCast_apply _ shapeCasts_S256_S1x256 (ix2 (0 : Fin 1) l) (ix1 l) (by
    rw [Shape.rowMajor_val_one, Shape.rowMajor_val_two]; show l.val = 0 * 256 + l.val; omega)

theorem V_v3_apply (c : Dev nD) (l : Fin 32) :
    (V m c main_v3 : Vec Ideal S1x32 .f32) (ix2 (0 : Fin 1) l) = m ((c : Thread nD τ).loc main_arg5) (ix1 l) := by
  have e : (V m c main_v3 : Vec Ideal S1x32 .f32) = (shapeCast S1x32 (m ((c : Thread nD τ).loc main_arg5)) shapeCasts_S32_S1x32 : Vec Ideal S1x32 .f32) := by
    dsimp only [V, hostOps0]; after_results; try rfl
  rw [e]
  exact shapeCast_apply _ shapeCasts_S32_S1x32 (ix2 (0 : Fin 1) l) (ix1 l) (by
    rw [Shape.rowMajor_val_one, Shape.rowMajor_val_two]; show l.val = 0 * 32 + l.val; omega)

theorem V_v4_apply (c : Dev nD) (l : Fin 32) :
    (V m c main_v4 : Vec Ideal S1x32 .f32) (ix2 (0 : Fin 1) l) = m ((c : Thread nD τ).loc main_arg7) (ix1 l) := by
  have e : (V m c main_v4 : Vec Ideal S1x32 .f32) = (shapeCast S1x32 (m ((c : Thread nD τ).loc main_arg7)) shapeCasts_S32_S1x32 : Vec Ideal S1x32 .f32) := by
    dsimp only [V, hostOps0]; after_results; try rfl
  rw [e]
  exact shapeCast_apply _ shapeCasts_S32_S1x32 (ix2 (0 : Fin 1) l) (ix1 l) (by
    rw [Shape.rowMajor_val_one, Shape.rowMajor_val_two]; show l.val = 0 * 32 + l.val; omega)

theorem V_v5_apply (c : Dev nD) :
    (V m c main_v5 : Vec Ideal S1x1 .f32) (ix2 (0 : Fin 1) (0 : Fin 1)) = m ((c : Thread nD τ).loc main_arg9) (ix1 (0 : Fin 1)) := by
  have e : (V m c main_v5 : Vec Ideal S1x1 .f32) = (shapeCast S1x1 (m ((c : Thread nD τ).loc main_arg9)) shapeCasts_S1_S1x1 : Vec Ideal S1x1 .f32) := by
    dsimp only [V, hostOps0]; after_results; try rfl
  rw [e]
  exact shapeCast_apply _ shapeCasts_S1_S1x1 (ix2 (0 : Fin 1) (0 : Fin 1)) (ix1 (0 : Fin 1)) (by
    rw [Shape.rowMajor_val_one, Shape.rowMajor_val_two]; rfl)

end Cert.Blocks

end
-- ==== Proof.Payload.lean ====
/-
  The kernel's arithmetic read at one index, over the extended reals.

  Each stored value of the body is one pure term of the vectors loaded before it. Over the extended reals a change
  of float format is the identity and a matrix product into a zero accumulator is the plain sum of products over the
  contracted coordinate, so every such term, read at row `r` and column `c`, is an explicit expression in the
  operands' entries.
-/
import proofs.«148835_j63977832841234_2_alg».proof.Proof.Gen.KernelIdeal.Skeleton
import proofs.«148835_j63977832841234_2_alg».proof.Proof.Net
import Idealize.ShloMosaic.Lib.Pipeline.Value
import Idealize.ShloMosaic.Lib.ValueLayout
import Idealize.ShloMosaic.Lib.ValueIdx
import Idealize.ShloMosaic.PureOps.Ideal.Laws

noncomputable section

namespace Cert.Payload

open Cert.KernelIdeal Cert.KernelIdeal.Gen Idealize.ShloMosaic Idealize.ShloMosaic.ValueIdx

/-! ## The feature transformer's partial products: a [512, 640] block against a [640, 256] block -/

/-- The contraction of a [512, 640] × [640, 256] product at (r, c): the contraction index has one coordinate
    `j < 640`, the left operand is read at (r, j) and the right one at (j, c). -/
theorem dot640_sum (x : FVec Ideal S512x640 .bf16) (w : FVec Ideal S640x256 .bf16) (r : Fin 512) (cc : Fin 256) :
    (∑ k : dot_S512x640_S640x256_S512x256_1_0_0_1_n_n.contr.Idx,
        x (dot_S512x640_S640x256_S512x256_1_0_0_1_n_n.lhsIdx (ix2 r cc) k)
          * w (dot_S512x640_S640x256_S512x256_1_0_0_1_n_n.rhsIdx (ix2 r cc) k))
      = ∑ j : Fin 640, x (ix2 r j) * w (ix2 j cc) := by
  rw [← Equiv.sum_comp (ValueIdx.contrEquiv1 dot_S512x640_S640x256_S512x256_1_0_0_1_n_n 640 rfl rfl).symm]
  refine Finset.sum_congr rfl fun k _ => ?_
  have hk := ValueIdx.contrEquiv1_symm_val dot_S512x640_S640x256_S512x256_1_0_0_1_n_n 640 rfl rfl k
  have el : dot_S512x640_S640x256_S512x256_1_0_0_1_n_n.lhsIdx (ix2 r cc)
      ((ValueIdx.contrEquiv1 dot_S512x640_S640x256_S512x256_1_0_0_1_n_n 640 rfl rfl).symm k) = ix2 r k :=
    funext fun a => Fin.ext (by
      match a with
      | ⟨0, _⟩ =>
        show (dot_S512x640_S640x256_S512x256_1_0_0_1_n_n.lhsIdx (ix2 r cc) _ 0).val = r.val
        unfold DotDims.lhsIdx
        rw [dif_neg (show ¬(0 : Fin S512x640.rank) ∈ dot_S512x640_S640x256_S512x256_1_0_0_1_n_n.lhsBatch by decide),
          dif_pos (show (0 : Fin S512x640.rank) ∈ dot_S512x640_S640x256_S512x256_1_0_0_1_n_n.lhsNonContracting by decide)]
        rfl
      | ⟨1, _⟩ =>
        exact (dot_S512x640_S640x256_S512x256_1_0_0_1_n_n.lhsIdx_val_of_single rfl (ix2 r cc) _).trans hk)
  have er : dot_S512x640_S640x256_S512x256_1_0_0_1_n_n.rhsIdx (ix2 r cc)
      ((ValueIdx.contrEquiv1 dot_S512x640_S640x256_S512x256_1_0_0_1_n_n 640 rfl rfl).symm k) = ix2 k cc :=
    funext fun a => Fin.ext (by
      match a with
      | ⟨0, _⟩ =>
        exact (dot_S512x640_S640x256_S512x256_1_0_0_1_n_n.rhsIdx_val_of_single rfl (ix2 r cc) _).trans hk
      | ⟨1, _⟩ =>
        show (dot_S512x640_S640x256_S512x256_1_0_0_1_n_n.rhsIdx (ix2 r cc) _ 1).val = cc.val
        unfold DotDims.rhsIdx
        rw [dif_neg (show ¬(1 : Fin S640x256.rank) ∈ dot_S512x640_S640x256_S512x256_1_0_0_1_n_n.rhsBatch by decide),
          dif_pos (show (1 : Fin S640x256.rank) ∈ dot_S512x640_S640x256_S512x256_1_0_0_1_n_n.rhsNonContracting by decide)]
        rfl)
  rw [el, er]

/-- The first half's update at (r, c): the accumulator there plus the 640 products of this block. -/
theorem pay3_apply (x : Vec Ideal S512x640 .f32) (w : Vec Ideal S640x256 .bf16) (a : Vec Ideal S512x256 .f32)
    (r : Fin 512) (cc : Fin 256) :
    k0_pay3 (F := Ideal) x w a (ix2 r cc) = a (ix2 r cc) + ∑ j : Fin 640, x (ix2 r j) * w (ix2 j cc) := by
  unfold k0_pay3 k0_pay2
  rw [shapeCast_self, shapeCast_self]
  show a (ix2 r cc) + _ = _
  refine congrArg (a (ix2 r cc) + ·) ?_
  refine (Ideal.matmul_constant_zero_apply dot_S512x640_S640x256_S512x256_1_0_0_1_n_n none
    (truncf .bf16 x bitsLt_bf16_f32) w (ix2 r cc)).trans ?_
  exact dot640_sum (truncf .bf16 x bitsLt_bf16_f32) w r cc

/-- The second half's update at (r, c): the same expression in the second feature block. -/
theorem pay4_apply (x : Vec Ideal S512x640 .f32) (w : Vec Ideal S640x256 .bf16) (a : Vec Ideal S512x256 .f32)
    (r : Fin 512) (cc : Fin 256) :
    k0_pay4 (F := Ideal) x w a (ix2 r cc) = a (ix2 r cc) + ∑ j : Fin 640, x (ix2 r j) * w (ix2 j cc) := by
  unfold k0_pay4 k0_pay2
  rw [shapeCast_self, shapeCast_self]
  show a (ix2 r cc) + _ = _
  refine congrArg (a (ix2 r cc) + ·) ?_
  refine (Ideal.matmul_constant_zero_apply dot_S512x640_S640x256_S512x256_1_0_0_1_n_n none
    (truncf .bf16 x bitsLt_bf16_f32) w (ix2 r cc)).trans ?_
  exact dot640_sum (truncf .bf16 x bitsLt_bf16_f32) w r cc

/-- The value the accumulator is cleared with: the zero word everywhere, which is the extended real 0. -/
theorem pay1_apply (y : S512x512.Idx) : k0_pay1 (F := Ideal) y = 0 := by
  unfold k0_pay1
  rw [shapeCast_self]
  exact Ideal.ofBits_zero_f32

/-! ## The three dense layers -/

/-- The contraction of a [512, 512] × [512, 32] product at (r, c), by the contracted coordinate. -/
theorem dot512_sum (x : FVec Ideal S512x512 .bf16) (w : FVec Ideal S512x32 .bf16) (r : Fin 512) (cc : Fin 32) :
    (∑ k : dot_S512x512_S512x32_S512x32_1_0_0_1_n_n.contr.Idx, x (dot_S512x512_S512x32_S512x32_1_0_0_1_n_n.lhsIdx (ix2 r cc) k) * w (dot_S512x512_S512x32_S512x32_1_0_0_1_n_n.rhsIdx (ix2 r cc) k))
      = ∑ j : Fin 512, x (ix2 r j) * w (ix2 j cc) := by
  rw [← Equiv.sum_comp (ValueIdx.contrEquiv1 dot_S512x512_S512x32_S512x32_1_0_0_1_n_n 512 rfl rfl).symm]
  refine Finset.sum_congr rfl fun k _ => ?_
  have hk := ValueIdx.contrEquiv1_symm_val dot_S512x512_S512x32_S512x32_1_0_0_1_n_n 512 rfl rfl k
  have el : dot_S512x512_S512x32_S512x32_1_0_0_1_n_n.lhsIdx (ix2 r cc) ((ValueIdx.contrEquiv1 dot_S512x512_S512x32_S512x32_1_0_0_1_n_n 512 rfl rfl).symm k) = ix2 r k :=
    funext fun a => Fin.ext (by
      match a with
      | ⟨0, _⟩ =>
        show (dot_S512x512_S512x32_S512x32_1_0_0_1_n_n.lhsIdx (ix2 r cc) _ 0).val = r.val
        unfold DotDims.lhsIdx
        rw [dif_neg (show ¬(0 : Fin S512x512.rank) ∈ dot_S512x512_S512x32_S512x32_1_0_0_1_n_n.lhsBatch by decide),
          dif_pos (show (0 : Fin S512x512.rank) ∈ dot_S512x512_S512x32_S512x32_1_0_0_1_n_n.lhsNonContracting by decide)]
        rfl
      | ⟨1, _⟩ => exact (dot_S512x512_S512x32_S512x32_1_0_0_1_n_n.lhsIdx_val_of_single rfl (ix2 r cc) _).trans hk)
  have er : dot_S512x512_S512x32_S512x32_1_0_0_1_n_n.rhsIdx (ix2 r cc) ((ValueIdx.contrEquiv1 dot_S512x512_S512x32_S512x32_1_0_0_1_n_n 512 rfl rfl).symm k) = ix2 k cc :=
    funext fun a => Fin.ext (by
      match a with
      | ⟨0, _⟩ => exact (dot_S512x512_S512x32_S512x32_1_0_0_1_n_n.rhsIdx_val_of_single rfl (ix2 r cc) _).trans hk
      | ⟨1, _⟩ =>
        show (dot_S512x512_S512x32_S512x32_1_0_0_1_n_n.rhsIdx (ix2 r cc) _ 1).val = cc.val
        unfold DotDims.rhsIdx
        rw [dif_neg (show ¬(1 : Fin S512x32.rank) ∈ dot_S512x512_S512x32_S512x32_1_0_0_1_n_n.rhsBatch by decide),
          dif_pos (show (1 : Fin S512x32.rank) ∈ dot_S512x512_S512x32_S512x32_1_0_0_1_n_n.rhsNonContracting by decide)]
        rfl)
  rw [el, er]

/-- The contraction of a [512, 32] × [32, 32] product at (r, c), by the contracted coordinate. -/
theorem dot32_sum (x : FVec Ideal S512x32 .bf16) (w : FVec Ideal S32x32 .bf16) (r : Fin 512) (cc : Fin 32) :
    (∑ k : dot_S512x32_S32x32_S512x32_1_0_0_1_n_n.contr.Idx, x (dot_S512x32_S32x32_S512x32_1_0_0_1_n_n.lhsIdx (ix2 r cc) k) * w (dot_S512x32_S32x32_S512x32_1_0_0_1_n_n.rhsIdx (ix2 r cc) k))
      = ∑ j : Fin 32, x (ix2 r j) * w (ix2 j cc) := by
  rw [← Equiv.sum_comp (ValueIdx.contrEquiv1 dot_S512x32_S32x32_S512x32_1_0_0_1_n_n 32 rfl rfl).symm]
  refine Finset.sum_congr rfl fun k _ => ?_
  have hk := ValueIdx.contrEquiv1_symm_val dot_S512x32_S32x32_S512x32_1_0_0_1_n_n 32 rfl rfl k
  have el : dot_S512x32_S32x32_S512x32_1_0_0_1_n_n.lhsIdx (ix2 r cc) ((ValueIdx.contrEquiv1 dot_S512x32_S32x32_S512x32_1_0_0_1_n_n 32 rfl rfl).symm k) = ix2 r k :=
    funext fun a => Fin.ext (by
      match a with
      | ⟨0, _⟩ =>
        show (dot_S512x32_S32x32_S512x32_1_0_0_1_n_n.lhsIdx (ix2 r cc) _ 0).val = r.val
        unfold DotDims.lhsIdx
        rw [dif_neg (show ¬(0 : Fin S512x32.rank) ∈ dot_S512x32_S32x32_S512x32_1_0_0_1_n_n.lhsBatch by decide),
          dif_pos (show (0 : Fin S512x32.rank) ∈ dot_S512x32_S32x32_S512x32_1_0_0_1_n_n.lhsNonContracting by decide)]
        rfl
      | ⟨1, _⟩ => exact (dot_S512x32_S32x32_S512x32_1_0_0_1_n_n.lhsIdx_val_of_single rfl (ix2 r cc) _).trans hk)
  have er : dot_S512x32_S32x32_S512x32_1_0_0_1_n_n.rhsIdx (ix2 r cc) ((ValueIdx.contrEquiv1 dot_S512x32_S32x32_S512x32_1_0_0_1_n_n 32 rfl rfl).symm k) = ix2 k cc :=
    funext fun a => Fin.ext (by
      match a with
      | ⟨0, _⟩ => exact (dot_S512x32_S32x32_S512x32_1_0_0_1_n_n.rhsIdx_val_of_single rfl (ix2 r cc) _).trans hk
      | ⟨1, _⟩ =>
        show (dot_S512x32_S32x32_S512x32_1_0_0_1_n_n.rhsIdx (ix2 r cc) _ 1).val = cc.val
        unfold DotDims.rhsIdx
        rw [dif_neg (show ¬(1 : Fin S32x32.rank) ∈ dot_S512x32_S32x32_S512x32_1_0_0_1_n_n.rhsBatch by decide),
          dif_pos (show (1 : Fin S32x32.rank) ∈ dot_S512x32_S32x32_S512x32_1_0_0_1_n_n.rhsNonContracting by decide)]
        rfl)
  rw [el, er]

/-- The contraction of a [512, 32] × [32, 1] product at (r, c), by the contracted coordinate. -/
theorem dot32x1_sum (x : FVec Ideal S512x32 .bf16) (w : FVec Ideal S32x1 .bf16) (r : Fin 512) (cc : Fin 1) :
    (∑ k : dot_S512x32_S32x1_S512x1_1_0_0_1_n_n.contr.Idx, x (dot_S512x32_S32x1_S512x1_1_0_0_1_n_n.lhsIdx (ix2 r cc) k) * w (dot_S512x32_S32x1_S512x1_1_0_0_1_n_n.rhsIdx (ix2 r cc) k))
      = ∑ j : Fin 32, x (ix2 r j) * w (ix2 j cc) := by
  rw [← Equiv.sum_comp (ValueIdx.contrEquiv1 dot_S512x32_S32x1_S512x1_1_0_0_1_n_n 32 rfl rfl).symm]
  refine Finset.sum_congr rfl fun k _ => ?_
  have hk := ValueIdx.contrEquiv1_symm_val dot_S512x32_S32x1_S512x1_1_0_0_1_n_n 32 rfl rfl k
  have el : dot_S512x32_S32x1_S512x1_1_0_0_1_n_n.lhsIdx (ix2 r cc) ((ValueIdx.contrEquiv1 dot_S512x32_S32x1_S512x1_1_0_0_1_n_n 32 rfl rfl).symm k) = ix2 r k :=
    funext fun a => Fin.ext (by
      match a with
      | ⟨0, _⟩ =>
        show (dot_S512x32_S32x1_S512x1_1_0_0_1_n_n.lhsIdx (ix2 r cc) _ 0).val = r.val
        unfold DotDims.lhsIdx
        rw [dif_neg (show ¬(0 : Fin S512x32.rank) ∈ dot_S512x32_S32x1_S512x1_1_0_0_1_n_n.lhsBatch by decide),
          dif_pos (show (0 : Fin S512x32.rank) ∈ dot_S512x32_S32x1_S512x1_1_0_0_1_n_n.lhsNonContracting by decide)]
        rfl
      | ⟨1, _⟩ => exact (dot_S512x32_S32x1_S512x1_1_0_0_1_n_n.lhsIdx_val_of_single rfl (ix2 r cc) _).trans hk)
  have er : dot_S512x32_S32x1_S512x1_1_0_0_1_n_n.rhsIdx (ix2 r cc) ((ValueIdx.contrEquiv1 dot_S512x32_S32x1_S512x1_1_0_0_1_n_n 32 rfl rfl).symm k) = ix2 k cc :=
    funext fun a => Fin.ext (by
      match a with
      | ⟨0, _⟩ => exact (dot_S512x32_S32x1_S512x1_1_0_0_1_n_n.rhsIdx_val_of_single rfl (ix2 r cc) _).trans hk
      | ⟨1, _⟩ =>
        show (dot_S512x32_S32x1_S512x1_1_0_0_1_n_n.rhsIdx (ix2 r cc) _ 1).val = cc.val
        unfold DotDims.rhsIdx
        rw [dif_neg (show ¬(1 : Fin S32x1.rank) ∈ dot_S512x32_S32x1_S512x1_1_0_0_1_n_n.rhsBatch by decide),
          dif_pos (show (1 : Fin S32x1.rank) ∈ dot_S512x32_S32x1_S512x1_1_0_0_1_n_n.rhsNonContracting by decide)]
        rfl)
  rw [el, er]

/-- Entry `l` of the bias row laid out twice side by side: entry `l` of the bias for `l < 256`, entry `l − 256` after. -/
def biasRow (b : Vec Ideal S1x256 .f32) (l : Fin 512) : EReal :=
  if h : l.val < 256 then b (ix2 (0 : Fin 1) (⟨l.val, h⟩ : Fin 256))
  else b (ix2 (0 : Fin 1) (⟨l.val - 256, by have := l.isLt; omega⟩ : Fin 256))

/-- Two copies of a [1, 256] row joined along the columns, read at column `l`. -/
theorem concat_apply (b : FVec Ideal S1x256 .f32) (l : Fin 512) :
    concatenate S1x512 1 [⟨S1x256, b⟩, ⟨S1x256, b⟩] concatenates_S1x256_S1x256_S1x512_d1 (ix2 (0 : Fin 1) l)
      = biasRow b l := by
  unfold biasRow
  split
  · next h =>
    exact concatenate_pair_apply_left (1 : Fin S1x512.rank) b b concatenates_S1x256_S1x256_S1x512_d1
      (ix2 (0 : Fin 1) l) rfl (ix2 (0 : Fin 1) (⟨l.val, h⟩ : Fin 256))
      (fun a => match a with | ⟨0, _⟩ => rfl | ⟨1, _⟩ => rfl)
  · next h =>
    exact concatenate_pair_apply_right (1 : Fin S1x512.rank) b b concatenates_S1x256_S1x256_S1x512_d1
      (ix2 (0 : Fin 1) l) rfl rfl (ix2 (0 : Fin 1) (⟨l.val - 256, by have := l.isLt; omega⟩ : Fin 256))
      (fun a ha => match a, ha with | ⟨0, _⟩, _ => rfl | ⟨1, _⟩, ha => absurd rfl ha)
      (by show l.val - 256 + 256 = l.val; omega)

/-- The 512 pre-activations with their bias: the accumulated products plus the doubled bias row, at (r, l). -/
def pre1 (v27 : Vec Ideal S1x256 .f32) (v30 : Vec Ideal S512x512 .f32) : FVec Ideal S512x512 .f32 :=
  addf v30 (broadcastTo S512x512
    (concatenate S1x512 1 [⟨S1x256, shapeCast S1x256 v27 shapeCasts_S1x256_S1x256⟩,
      ⟨S1x256, shapeCast S1x256 v27 shapeCasts_S1x256_S1x256⟩] concatenates_S1x256_S1x256_S1x512_d1)
    broadcasts_S1x512_S512x512)

theorem pre1_apply (v27 : Vec Ideal S1x256 .f32) (v30 : Vec Ideal S512x512 .f32) (r l : Fin 512) :
    pre1 v27 v30 (ix2 r l) = v30 (ix2 r l) + biasRow v27 l := by
  unfold pre1
  rw [shapeCast_self]
  show v30 (ix2 r l) + _ = _
  refine congrArg (v30 (ix2 r l) + ·) ?_
  refine (broadcastTo_1b_ab_apply _ broadcasts_S1x512_S512x512 r l).trans ?_
  exact concat_apply v27 l

/-- The clipped leaky ramp applied to every entry of a vector, in the order the body writes its three terms. -/
def rampV (s : Shape) (x : FVec Ideal s .f32) : FVec Ideal s .f32 :=
  addf
    (addf (mulf (broadcast s (Scalar.ofBits .f32 0x3C23D70A#32)) (minimumf x (broadcast s (Scalar.ofBits .f32 0x00000000#32))))
      (minimumf (broadcast s (Scalar.ofBits .f32 0x3F800000#32)) (maximumf (broadcast s (Scalar.ofBits .f32 0x00000000#32)) x)))
    (mulf (broadcast s (Scalar.ofBits .f32 0x3C23D70A#32))
      (subf (maximumf x (broadcast s (Scalar.ofBits .f32 0x3F800000#32))) (broadcast s (Scalar.ofBits .f32 0x3F800000#32))))

theorem rampV_apply (s : Shape) (x : FVec Ideal s .f32) (i : s.Idx) : rampV s x i = Cert.Net.ramp (x i) := rfl

/-- The first dense layer as the body writes it: the activations against the transposed [32, 512] weights, plus the
    bias row on every row. -/
def layer1 (h : FVec Ideal S512x512 .f32) (v49 : Vec Ideal S32x512 .f32) (v54 : Vec Ideal S1x32 .f32) :
    FVec Ideal S512x32 .f32 :=
  addf
    (matmul dot_S512x512_S512x32_S512x32_1_0_0_1_n_n none (truncf .bf16 h bitsLt_bf16_f32)
      (transpose S512x32 [1, 0] (truncf .bf16 v49 bitsLt_bf16_f32) transposes_S32x512_p1_0_S512x32)
      (constant S512x32 .f32 0x00000000#32))
    (broadcastTo S512x32 (shapeCast S1x32 v54 shapeCasts_S1x32_S1x32) broadcasts_S1x32_S512x32)

theorem layer1_apply (h : FVec Ideal S512x512 .f32) (v49 : Vec Ideal S32x512 .f32) (v54 : Vec Ideal S1x32 .f32)
    (r : Fin 512) (j : Fin 32) :
    layer1 h v49 v54 (ix2 r j)
      = Cert.Net.dense (fun l : Fin 512 => h (ix2 r l)) (fun l : Fin 512 => v49 (ix2 j l)) (v54 (ix2 (0 : Fin 1) j)) := by
  unfold layer1 Cert.Net.dense
  rw [shapeCast_self]
  show _ + _ = _
  refine congrArg₂ (· + ·) ?_ (broadcastTo_1b_ab_apply v54 broadcasts_S1x32_S512x32 r j)
  refine (Ideal.matmul_constant_zero_apply dot_S512x512_S512x32_S512x32_1_0_0_1_n_n none (truncf .bf16 h bitsLt_bf16_f32)
    (transpose S512x32 [1, 0] (truncf .bf16 v49 bitsLt_bf16_f32) transposes_S32x512_p1_0_S512x32) (ix2 r j)).trans ?_
  refine (dot512_sum _ _ r j).trans ?_
  refine Finset.sum_congr rfl fun l _ => ?_
  refine congrArg (h (ix2 r l) * ·) ?_
  exact transpose_ix2_apply (truncf (F := Ideal) .bf16 v49 bitsLt_bf16_f32) transposes_S32x512_p1_0_S512x32 l j

/-- The second dense layer: [512, 32] activations against the transposed [32, 32] weights, plus the bias row. -/
def layer2 (h : FVec Ideal S512x32 .f32) (v74 : Vec Ideal S32x32 .f32) (v79 : Vec Ideal S1x32 .f32) :
    FVec Ideal S512x32 .f32 :=
  addf
    (matmul dot_S512x32_S32x32_S512x32_1_0_0_1_n_n none (truncf .bf16 h bitsLt_bf16_f32)
      (transpose S32x32 [1, 0] (truncf .bf16 v74 bitsLt_bf16_f32) transposes_S32x32_p1_0_S32x32)
      (constant S512x32 .f32 0x00000000#32))
    (broadcastTo S512x32 (shapeCast S1x32 v79 shapeCasts_S1x32_S1x32) broadcasts_S1x32_S512x32)

theorem layer2_apply (h : FVec Ideal S512x32 .f32) (v74 : Vec Ideal S32x32 .f32) (v79 : Vec Ideal S1x32 .f32)
    (r : Fin 512) (k : Fin 32) :
    layer2 h v74 v79 (ix2 r k)
      = Cert.Net.dense (fun j : Fin 32 => h (ix2 r j)) (fun j : Fin 32 => v74 (ix2 k j)) (v79 (ix2 (0 : Fin 1) k)) := by
  unfold layer2 Cert.Net.dense
  rw [shapeCast_self]
  show _ + _ = _
  refine congrArg₂ (· + ·) ?_ (broadcastTo_1b_ab_apply v79 broadcasts_S1x32_S512x32 r k)
  refine (Ideal.matmul_constant_zero_apply dot_S512x32_S32x32_S512x32_1_0_0_1_n_n none (truncf .bf16 h bitsLt_bf16_f32)
    (transpose S32x32 [1, 0] (truncf .bf16 v74 bitsLt_bf16_f32) transposes_S32x32_p1_0_S32x32) (ix2 r k)).trans ?_
  refine (dot32_sum _ _ r k).trans ?_
  refine Finset.sum_congr rfl fun j _ => ?_
  refine congrArg (h (ix2 r j) * ·) ?_
  exact transpose_ix2_apply (truncf (F := Ideal) .bf16 v74 bitsLt_bf16_f32) transposes_S32x32_p1_0_S32x32 j k

/-- The output layer without its bias: [512, 32] activations against the transposed [1, 32] weight row. -/
def layer3 (h : FVec Ideal S512x32 .f32) (v99 : Vec Ideal S1x32 .f32) : FVec Ideal S512x1 .f32 :=
  matmul dot_S512x32_S32x1_S512x1_1_0_0_1_n_n none (truncf .bf16 h bitsLt_bf16_f32)
    (transpose S32x1 [1, 0] (truncf .bf16 v99 bitsLt_bf16_f32) transposes_S1x32_p1_0_S32x1)
    (constant S512x1 .f32 0x00000000#32)

theorem layer3_apply (h : FVec Ideal S512x32 .f32) (v99 : Vec Ideal S1x32 .f32) (r : Fin 512) :
    layer3 h v99 (ix2 r (0 : Fin 1)) = ∑ k : Fin 32, h (ix2 r k) * v99 (ix2 (0 : Fin 1) k) := by
  unfold layer3
  refine (Ideal.matmul_constant_zero_apply dot_S512x32_S32x1_S512x1_1_0_0_1_n_n none (truncf .bf16 h bitsLt_bf16_f32)
    (transpose S32x1 [1, 0] (truncf .bf16 v99 bitsLt_bf16_f32) transposes_S1x32_p1_0_S32x1) (ix2 r (0 : Fin 1))).trans ?_
  refine (dot32x1_sum _ _ r (0 : Fin 1)).trans ?_
  refine Finset.sum_congr rfl fun k _ => ?_
  refine congrArg (h (ix2 r k) * ·) ?_
  exact transpose_ix2_apply (truncf (F := Ideal) .bf16 v99 bitsLt_bf16_f32) transposes_S1x32_p1_0_S32x1 k (0 : Fin 1)

/-! ## The body's stored values are these layers -/

/-- The first layer's output is the body's first stored value: the ramp of the biased pre-activations through the
    first dense layer. -/
theorem pay6_eq (v27 : Vec Ideal S1x256 .f32) (v30 : Vec Ideal S512x512 .f32) (v49 : Vec Ideal S32x512 .f32)
    (v54 : Vec Ideal S1x32 .f32) :
    k0_pay6 (F := Ideal) v27 v30 v49 v54 = layer1 (rampV S512x512 (pre1 v27 v30)) v49 v54 := rfl

/-- The first layer's output at (r, j). -/
theorem pay6_apply (v27 : Vec Ideal S1x256 .f32) (v30 : Vec Ideal S512x512 .f32) (v49 : Vec Ideal S32x512 .f32)
    (v54 : Vec Ideal S1x32 .f32) (r : Fin 512) (j : Fin 32) :
    k0_pay6 (F := Ideal) v27 v30 v49 v54 (ix2 r j)
      = Cert.Net.dense (fun l : Fin 512 => Cert.Net.ramp (v30 (ix2 r l) + biasRow v27 l))
          (fun l : Fin 512 => v49 (ix2 j l)) (v54 (ix2 (0 : Fin 1) j)) := by
  rw [pay6_eq]
  refine (layer1_apply _ v49 v54 r j).trans ?_
  refine congrArg (fun h : Fin 512 → EReal => Cert.Net.dense h (fun l : Fin 512 => v49 (ix2 j l)) (v54 (ix2 (0 : Fin 1) j)))
    (funext fun l => ?_)
  show Cert.Net.ramp (pre1 v27 v30 (ix2 r l)) = _
  exact congrArg Cert.Net.ramp (pre1_apply v27 v30 r l)

/-- The ramp of the first layer's output is written in two pieces (its first two terms, then the third added); with
    them the last stored product is the second layer, a ramp, and the output layer. -/
theorem pay8_eq (v27 : Vec Ideal S1x256 .f32) (v30 : Vec Ideal S512x512 .f32) (v49 : Vec Ideal S32x512 .f32)
    (v54 : Vec Ideal S1x32 .f32) (v74 : Vec Ideal S32x32 .f32) (v79 v99 : Vec Ideal S1x32 .f32) :
    k0_pay8 (F := Ideal) (k0_pay6 v27 v30 v49 v54) (k0_pay7 v27 v30 v49 v54) v74 v79 v99
      = layer3 (rampV S512x32 (layer2 (rampV S512x32 (k0_pay6 (F := Ideal) v27 v30 v49 v54)) v74 v79)) v99 := rfl

/-- The output bias, a [1, 1] value on every row. -/
theorem pay9_apply (v104 : Vec Ideal S1x1 .f32) (r : Fin 512) :
    k0_pay9 (F := Ideal) v104 (ix2 r (0 : Fin 1)) = v104 (ix2 (0 : Fin 1) (0 : Fin 1)) := by
  unfold k0_pay9
  rw [shapeCast_self]
  exact broadcastTo_1b_ab_apply v104 broadcasts_S1x1_S512x1 r (0 : Fin 1)

/-- THE TAIL: the value stored for row `r` is the three dense layers over that row's 512 biased pre-activations. -/
theorem tail_apply (v27 : Vec Ideal S1x256 .f32) (v30 : Vec Ideal S512x512 .f32) (v49 : Vec Ideal S32x512 .f32)
    (v54 : Vec Ideal S1x32 .f32) (v74 : Vec Ideal S32x32 .f32) (v79 v99 : Vec Ideal S1x32 .f32)
    (v104 : Vec Ideal S1x1 .f32) (r : Fin 512) :
    k0_pay5 (F := Ideal) (k0_pay8 (k0_pay6 v27 v30 v49 v54) (k0_pay7 v27 v30 v49 v54) v74 v79 v99) (k0_pay9 v104)
        (ix2 r (0 : Fin 1))
      = Cert.Net.tail
          (fun l => v30 (ix2 r l) + (if h : l.val < 256 then v27 (ix2 (0 : Fin 1) (⟨l.val, h⟩ : Fin 256))
            else v27 (ix2 (0 : Fin 1) (⟨l.val - 256, by have := l.isLt; omega⟩ : Fin 256))))
          (fun j l => v49 (ix2 j l)) (fun j => v54 (ix2 (0 : Fin 1) j)) (fun k j => v74 (ix2 k j))
          (fun k => v79 (ix2 (0 : Fin 1) k)) (fun k => v99 (ix2 (0 : Fin 1) k))
          (v104 (ix2 (0 : Fin 1) (0 : Fin 1))) := by
  show k0_pay8 (F := Ideal) (k0_pay6 v27 v30 v49 v54) (k0_pay7 v27 v30 v49 v54) v74 v79 v99 (ix2 r (0 : Fin 1))
      + k0_pay9 (F := Ideal) v104 (ix2 r (0 : Fin 1)) = _
  rw [pay9_apply, pay8_eq, layer3_apply]
  unfold Cert.Net.tail
  show Cert.Net.dense
      (fun k : Fin 32 => Cert.Net.ramp (layer2 (rampV S512x32 (k0_pay6 (F := Ideal) v27 v30 v49 v54)) v74 v79 (ix2 r k)))
      (fun k : Fin 32 => v99 (ix2 (0 : Fin 1) k)) (v104 (ix2 (0 : Fin 1) (0 : Fin 1))) = _
  refine congrArg (fun h : Fin 32 → EReal => Cert.Net.dense h (fun k : Fin 32 => v99 (ix2 (0 : Fin 1) k))
    (v104 (ix2 (0 : Fin 1) (0 : Fin 1)))) (funext fun k => ?_)
  refine congrArg Cert.Net.ramp ?_
  refine (layer2_apply _ v74 v79 r k).trans ?_
  refine congrArg (fun h : Fin 32 → EReal => Cert.Net.dense h (fun j : Fin 32 => v74 (ix2 k j)) (v79 (ix2 (0 : Fin 1) k)))
    (funext fun j => ?_)
  show Cert.Net.ramp (k0_pay6 (F := Ideal) v27 v30 v49 v54 (ix2 r j)) = _
  refine congrArg Cert.Net.ramp ?_
  exact pay6_apply v27 v30 v49 v54 r j

end Cert.Payload

end
-- ==== Proof.Accum.lean ====
/-
  The accumulator over one row tile.

  Within row tile `q` the points 65 q, 65 q + 1, …, 65 q + 64 visit the feature tiles 0 … 64 in order. The first
  stores zero and adds its tile's partial products; each later one adds its own to what the point before left.
  So after the point of feature tile `k` the accumulator holds, entry by entry, zero plus the sum over the tiles
  0 … k of the tile's 640 products — and after the last tile the full 41600-term inner products, because a sum of
  65 · 640 terms taken 640 at a time is the whole sum.
-/
import proofs.«148835_j63977832841234_2_alg».proof.Proof.Gen.KernelIdeal.Value
import proofs.«148835_j63977832841234_2_alg».proof.Proof.Net
import proofs.«148835_j63977832841234_2_alg».proof.Proof.Pieces
import proofs.«148835_j63977832841234_2_alg».proof.Proof.Blocks
import proofs.«148835_j63977832841234_2_alg».proof.Proof.Payload

noncomputable section

namespace Cert.Accum

open Cert.KernelIdeal Cert.KernelIdeal.Gen Cert.KernelIdeal.Value Idealize.ShloMosaic Idealize.ShloMosaic.TcCoe Idealize.SL.Sem
open Idealize.ShloMosaic.ValueIdx Cert.Pieces Cert.Blocks

variable (m : (ℓ : Loc nD τ sig) → Buf (Elt Ideal) ℓ)

/-- The feature tile's offsets into the transposed weights, over the grid: row 640 · (feature tile), column 0. -/
theorem off_facts : ∀ t : Fin cfg0.N, k0_off1 (grid0.coords t) = ![640 * (t.val % 65), 0] :=
  (by decide +kernel : ∀ t : Fin grid0.N, k0_off1 (grid0.coords t) = ![640 * (t.val % 65), 0])

/-- The point's weight rows: entry (j, l) of the tile is weight row `l` at feature `j` of the tile. -/
theorem wtile_apply (c : Dev nD) (t : Fin cfg0.N) (j : Fin 640) (l : Fin 256) :
    wtile (grid0.coords t) (iblk m c 2 t : Vec Ideal S41600x256 .bf16) (ix2 j l)
      = m ((c : Thread nD τ).loc main_arg2) (ix2 l (featAt t j)) := by
  unfold wtile
  rw [iblk2_eq]
  refine Eq.trans ?_ (V_v1_apply m c (featAt t j) l)
  refine congrArg (V m c main_v1 : Vec Ideal S41600x256 .bf16) (funext fun a => Fin.ext ?_)
  have ho := off_facts t
  match a with
  | ⟨0, _⟩ => show k0_off1 (grid0.coords t) 0 + 1 * j.val = 640 * (t.val % 65) + j.val; rw [ho]; show 640 * (t.val % 65) + 1 * j.val = _; omega
  | ⟨1, _⟩ => show k0_off1 (grid0.coords t) 1 + 1 * l.val = l.val; rw [ho]; show 0 + 1 * l.val = _; omega

/-- Row `r` of the row tile that point `n` belongs to (the tile number read modulo 8, so that every natural names
    one). -/
abbrev rowOf (n : Nat) (r : Fin 512) : Fin 4096 :=
  ⟨512 * (n / 65 % 8) + r.val, by have := r.isLt; have := Nat.mod_lt (n / 65) (by norm_num : 8 > 0); omega⟩

theorem rowOf_eq (t : Fin cfg0.N) (r : Fin 512) : rowOf t.val r = rowAt t r := Fin.ext (by
  have h1 := t.isLt; have h2 : cfg0.N = 520 := N_0
  show 512 * (t.val / 65 % 8) + r.val = 512 * (t.val / 65) + r.val
  rw [Nat.mod_eq_of_lt (by omega)])

/-- What point `n` adds to accumulator entry (r, l): the 640 products of its feature tile — the first feature row
    against weight row `l` in the left half, the second against weight row `l − 256` in the right half. -/
def addendAt (c : Dev nD) (n : Nat) (r l : Fin 512) : EReal :=
  if h : l.val < 256 then
    ∑ j : Fin 640, A0 m c (ix2 (rowOf n r) (Net.blockIdx n j)) * A2 m c (ix2 (⟨l.val, h⟩ : Fin 256) (Net.blockIdx n j))
  else
    ∑ j : Fin 640, A1 m c (ix2 (rowOf n r) (Net.blockIdx n j))
      * A2 m c (ix2 (⟨l.val - 256, by have h1 := l.isLt; omega⟩ : Fin 256) (Net.blockIdx n j))

/-- The same, at an accumulator index. -/
def addend (c : Dev nD) (n : Nat) (y : S512x512.Idx) : EReal := addendAt m c n (y 0) (y 1)

/-- One accumulation step at point `t`, at entry (r, l): what was there plus the point's addend. -/
theorem step_at (c : Dev nD) (t : Fin cfg0.N) (acc : Vec Ideal S512x512 .f32) (r l : Fin 512) :
    accStep (grid0.coords t) (iblk m c 0 t) (iblk m c 1 t) (iblk m c 2 t) acc (ix2 r l)
      = acc (ix2 r l) + addendAt m c t.val r l := by
  have hl := l.isLt
  unfold addendAt
  by_cases h : l.val < 256
  · rw [dif_pos h]
    have e : accStep (grid0.coords t) (iblk m c 0 t) (iblk m c 1 t) (iblk m c 2 t) acc (ix2 r l)
        = k0_pay3 (F := Ideal) (iblk m c 0 t) (wtile (grid0.coords t) (iblk m c 2 t)) (View.ld acc rL) (ix2 r (⟨l.val, h⟩ : Fin 256)) := by
      unfold accStep halves; exact dif_pos h
    rw [e]
    refine (Cert.Payload.pay3_apply _ _ _ r (⟨l.val, h⟩ : Fin 256)).trans ?_
    refine congrArg₂ (· + ·) ?_ (Finset.sum_congr rfl fun j _ => ?_)
    · show acc (rL.idx (ix2 r (⟨l.val, h⟩ : Fin 256))) = acc (ix2 r l)
      refine congrArg acc (funext fun a => Fin.ext ?_)
      match a with
      | ⟨0, _⟩ => show 0 + 1 * r.val = r.val; omega
      | ⟨1, _⟩ => show 0 + 1 * l.val = l.val; omega
    · rw [iblk0_apply, wtile_apply, rowOf_eq]
  · rw [dif_neg h]
    have e : accStep (grid0.coords t) (iblk m c 0 t) (iblk m c 1 t) (iblk m c 2 t) acc (ix2 r l)
        = k0_pay4 (F := Ideal) (iblk m c 1 t) (wtile (grid0.coords t) (iblk m c 2 t)) (View.ld acc rR) (ix2 r (⟨l.val - 256, by omega⟩ : Fin 256)) := by
      unfold accStep halves; exact dif_neg h
    rw [e]
    refine (Cert.Payload.pay4_apply _ _ _ r (⟨l.val - 256, by omega⟩ : Fin 256)).trans ?_
    refine congrArg₂ (· + ·) ?_ (Finset.sum_congr rfl fun j _ => ?_)
    · show acc (rR.idx (ix2 r (⟨l.val - 256, by omega⟩ : Fin 256))) = acc (ix2 r l)
      refine congrArg acc (funext fun a => Fin.ext ?_)
      match a with
      | ⟨0, _⟩ => show 0 + 1 * r.val = r.val; omega
      | ⟨1, _⟩ => show 256 + 1 * (l.val - 256) = l.val; omega
    · rw [iblk1_apply, wtile_apply, rowOf_eq]

theorem step_apply (c : Dev nD) (t : Fin cfg0.N) (acc : Vec Ideal S512x512 .f32) (y : S512x512.Idx) :
    accStep (grid0.coords t) (iblk m c 0 t) (iblk m c 1 t) (iblk m c 2 t) acc y = acc y + addend m c t.val y := by
  obtain ⟨r, l, rfl⟩ : ∃ (r : Fin 512) (l : Fin 512), y = ix2 r l := ⟨y 0, y 1, eq_ix2 y⟩
  exact step_at m c t acc r l

/-- What a point leaves in the accumulator, over what the point before left: at the first feature tile the step
    over the zero fill, at every other tile the step over what was there. -/
theorem scAt_first (c : Dev nD) (n : Nat) (hb : n < cfg0.N) (h0 : n % 65 = 0) (acc : Vec Ideal S512x512 .f32) :
    scAt0_0 m c n hb acc
      = accStep (grid0.coords (⟨n, hb⟩ : Fin cfg0.N)) (iblk m c 0 (⟨n, hb⟩ : Fin cfg0.N)) (iblk m c 1 (⟨n, hb⟩ : Fin cfg0.N)) (iblk m c 2 (⟨n, hb⟩ : Fin cfg0.N)) (k0_pay1 (F := Ideal)) := by
  have h1 : ¬n % 65 = 64 := by omega
  unfold scAt0_0
  rw [dif_pos h0, dif_neg h1]
  exact sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))

theorem scAt_later (c : Dev nD) (n : Nat) (hb : n < cfg0.N) (h0 : ¬n % 65 = 0) (acc : Vec Ideal S512x512 .f32) :
    scAt0_0 m c n hb acc
      = accStep (grid0.coords (⟨n, hb⟩ : Fin cfg0.N)) (iblk m c 0 (⟨n, hb⟩ : Fin cfg0.N)) (iblk m c 1 (⟨n, hb⟩ : Fin cfg0.N)) (iblk m c 2 (⟨n, hb⟩ : Fin cfg0.N)) acc := by
  unfold scAt0_0
  rw [dif_neg h0]
  by_cases h1 : n % 65 = 64
  · rw [dif_pos h1]
    exact sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc
  · rw [dif_neg h1]
    exact sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc

/-- THE ACCUMULATOR after point `t`: zero plus the addends of its row tile's points up to `t`. -/
theorem acc_after (c : Dev nD) (t : Fin cfg0.N) (y : S512x512.Idx) :
    (outsAt0 m c t.val t.isLt).2 y
      = 0 + ∑ s ∈ Finset.range (t.val % 65 + 1), addend m c (65 * (t.val / 65) + s) y := by
  have hN : cfg0.N = 520 := N_0
  have ht := t.isLt
  rw [soutsAt0_0_eq]
  refine Pipeline.accAt_add_apply (fun n h => scAt0_0 m c n h (VS0_0.read (Elt Ideal) VS0_0.junk)) (scAt0_0 m c)
    (fun _ => (0 : EReal)) (addend m c) (65 * (t.val / 65)) 64 ?_ ?_ (t.val % 65) (by omega) _ y
  · intro h i
    show scAt0_0 m c (65 * (t.val / 65)) h _ i = _
    rw [scAt_first m c _ h (by omega), step_apply m c ⟨65 * (t.val / 65), h⟩ _ i, Cert.Payload.pay1_apply]
  · intro n h acc i hlo hhi
    rw [scAt_later m c n h (by omega), step_apply m c ⟨n, h⟩ acc i]

/-- AFTER THE LAST FEATURE TILE of a row tile, entry (r, l) of the accumulator plus the bias of unit `l` is the
    network's pre-activation `l` of row `r` of that row tile: the 65 tiles' sums of 640 products are the whole
    41600-term inner product. -/
theorem acc_last (c : Dev nD) (t : Fin cfg0.N) (h64 : t.val % 65 = 64) (r : Fin 512) (l : Fin 512) :
    (outsAt0 m c t.val t.isLt).2 (ix2 r l)
        + (if h : l.val < 256 then A3 m c (ix1 (⟨l.val, h⟩ : Fin 256))
           else A3 m c (ix1 (⟨l.val - 256, by have := l.isLt; omega⟩ : Fin 256)))
      = Net.feat (A0 m c) (A1 m c) (A2 m c) (A3 m c) (rowAt t r) l := by
  have hN : cfg0.N = 520 := N_0
  have ht := t.isLt
  have hl := l.isLt
  rw [acc_after m c t (ix2 r l), h64, zero_add]
  unfold Net.feat
  by_cases h : l.val < 256
  · rw [dif_pos h, dif_pos h]
    refine congrArg (· + _) ?_
    rw [Net.sum_blocks (fun k => A0 m c (ix2 (rowAt t r) k) * A2 m c (ix2 (⟨l.val, h⟩ : Fin 256) k))]
    refine Finset.sum_congr rfl fun s hs => ?_
    have hs' := Finset.mem_range.mp hs
    show addendAt m c (65 * (t.val / 65) + s) r l = _
    unfold addendAt
    rw [dif_pos h]
    refine Finset.sum_congr rfl fun j _ => ?_
    have e1 : rowOf (65 * (t.val / 65) + s) r = rowAt t r := Fin.ext (by
      show 512 * ((65 * (t.val / 65) + s) / 65 % 8) + r.val = 512 * (t.val / 65) + r.val
      have e : (65 * (t.val / 65) + s) / 65 = t.val / 65 := by omega
      rw [e, Nat.mod_eq_of_lt (by omega)])
    have e2 : Net.blockIdx (65 * (t.val / 65) + s) j = Net.blockIdx s j := Fin.ext (by
      show 640 * ((65 * (t.val / 65) + s) % 65) + j.val = 640 * (s % 65) + j.val
      rw [Nat.mul_add_mod])
    rw [e1, e2]
  · rw [dif_neg h, dif_neg h]
    refine congrArg (· + _) ?_
    rw [Net.sum_blocks (fun k => A1 m c (ix2 (rowAt t r) k) * A2 m c (ix2 (⟨l.val - 256, by omega⟩ : Fin 256) k))]
    refine Finset.sum_congr rfl fun s hs => ?_
    have hs' := Finset.mem_range.mp hs
    show addendAt m c (65 * (t.val / 65) + s) r l = _
    unfold addendAt
    rw [dif_neg h]
    refine Finset.sum_congr rfl fun j _ => ?_
    have e1 : rowOf (65 * (t.val / 65) + s) r = rowAt t r := Fin.ext (by
      show 512 * ((65 * (t.val / 65) + s) / 65 % 8) + r.val = 512 * (t.val / 65) + r.val
      have e : (65 * (t.val / 65) + s) / 65 = t.val / 65 := by omega
      rw [e, Nat.mod_eq_of_lt (by omega)])
    have e2 : Net.blockIdx (65 * (t.val / 65) + s) j = Net.blockIdx s j := Fin.ext (by
      show 640 * ((65 * (t.val / 65) + s) % 65) + j.val = 640 * (s % 65) + j.val
      rw [Nat.mul_add_mod])
    rw [e1, e2]

end Cert.Accum

end
-- ==== Proof.Final.lean ====
/-
  The result array after the grid has run.

  The result window's block moves with the row tile and is written back only after the row tile's last feature
  tile. What that point writes back is, row by row, the three dense layers over the completed accumulator plus
  bias — the network's value at the rows of that row tile. The eight row tiles' blocks fill the [4096, 1] array.
-/
import proofs.«148835_j63977832841234_2_alg».proof.Proof.Gen.KernelIdeal.Value
import proofs.«148835_j63977832841234_2_alg».proof.Proof.Net
import proofs.«148835_j63977832841234_2_alg».proof.Proof.Pieces
import proofs.«148835_j63977832841234_2_alg».proof.Proof.Blocks
import proofs.«148835_j63977832841234_2_alg».proof.Proof.Payload
import proofs.«148835_j63977832841234_2_alg».proof.Proof.Accum

noncomputable section

namespace Cert.Final

open Cert.KernelIdeal Cert.KernelIdeal.Gen Cert.KernelIdeal.Value Idealize.ShloMosaic Idealize.ShloMosaic.TcCoe Idealize.SL.Sem
open Idealize.ShloMosaic.ValueIdx Cert.Pieces Cert.Blocks Cert.Accum
open Idealize.ShloMosaic.Pipeline (Dat)

variable (m : (ℓ : Loc nD τ sig) → Buf (Elt Ideal) ℓ) (ρ : Dev nD → PrngReg)

/-- The network of the ten argument arrays, as contents of the result array. -/
def result (c : Dev nD) : Buf (Elt Ideal) ((c : Thread nD τ).loc main_v6) :=
  Net.out (A0 m c) (A1 m c) (A2 m c) (A3 m c) (A4 m c) (A5 m c) (A6 m c) (A7 m c) (A8 m c) (A9 m c)

/-- At the last feature tile of a row tile the accumulation step over what the point before left IS what the
    accumulator holds after the point. -/
theorem acc_now (c : Dev nD) (t : Fin cfg0.N) (h0 : ¬t.val % 65 = 0) (h1 : t.val % 65 = 64) :
    accStep (grid0.coords t) (iblk m c 0 t) (iblk m c 1 t) (iblk m c 2 t)
        (outsAt0 m c (t.val - 1) (Nat.lt_of_le_of_lt (Nat.sub_le _ _) t.isLt)).2
      = (outsAt0 m c t.val t.isLt).2 := by
  refine Eq.symm ((congrArg Prod.snd (outsAt0_C m c t h0 h1)).trans ?_)
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2

/-- WHAT A FLUSHING POINT WRITES BACK is its block of the network's result. -/
theorem flushed_eq (c : Dev nD) (t : Fin cfg0.N) (hf : (cfg0.win 10).flush t = true) :
    (dats m 0 c).flushed 10 t = ((cfg0.win 10).blk t).view.read (Elt Ideal) (result m c) := by
  have h1 : t.val % 65 = 64 := (flush0_10 t).mp hf
  have h0 : ¬t.val % 65 = 0 := by omega
  obtain ⟨-, -, -, -, e0, e1⟩ := idx_facts t
  rw [flushed10_C m c t h0 h1,
    out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2,
    acc_now m c t h0 h1]
  funext j
  have hj0 : (j 0).val < 512 := lt_of_lt_of_le (j 0).isLt ((cfg0.win 10).xsize_le (grid0.coords t) 0)
  have hj1 : (j 1).val = 0 := by
    have h : (j 1).val < 1 := lt_of_lt_of_le (j 1).isLt ((cfg0.win 10).xsize_le (grid0.coords t) 1)
    omega
  have eL : (cfg0.win 10).xinj (grid0.coords t) j = ix2 (⟨(j 0).val, hj0⟩ : Fin 512) (0 : Fin 1) :=
    funext fun a => Fin.ext (by
      match a with
      | ⟨0, _⟩ => rfl
      | ⟨1, _⟩ => exact hj1)
  have eR : ((cfg0.win 10).blk t).view.emb j = ix2 (rowAt t (⟨(j 0).val, hj0⟩ : Fin 512)) (0 : Fin 1) :=
    funext fun a => Fin.ext (by
      match a with
      | ⟨0, _⟩ => show win0_10.index t (0 : Fin 2) * 512 + 1 * (j 0).val = 512 * (t.val / 65) + (j 0).val; omega
      | ⟨1, _⟩ => show win0_10.index t (1 : Fin 2) * 1 + 1 * (j 1).val = 0; omega)
  rw [View.read_apply, eR]
  show tailPay (iblk m c 3 t) (outsAt0 m c t.val t.isLt).2 (iblk m c 4 t) (iblk m c 5 t) (iblk m c 6 t) (iblk m c 7 t)
      (iblk m c 8 t) (iblk m c 9 t) ((cfg0.win 10).xinj (grid0.coords t) j) = _
  rw [eL]
  unfold tailPay result Net.out
  refine (Cert.Payload.tail_apply _ _ _ _ _ _ _ _ (⟨(j 0).val, hj0⟩ : Fin 512)).trans ?_
  rw [iblk3_eq, iblk4_eq, iblk5_eq, iblk6_eq, iblk7_eq, iblk8_eq, iblk9_eq, V_main_arg4, V_main_arg6, V_main_arg8]
  have ea : (fun l : Fin 512 => (outsAt0 m c t.val t.isLt).2 (ix2 (⟨(j 0).val, hj0⟩ : Fin 512) l)
        + (if h : l.val < 256 then (V m c main_v2 : Vec Ideal S1x256 .f32) (ix2 (0 : Fin 1) (⟨l.val, h⟩ : Fin 256))
           else (V m c main_v2 : Vec Ideal S1x256 .f32) (ix2 (0 : Fin 1) (⟨l.val - 256, by have := l.isLt; omega⟩ : Fin 256))))
      = Net.feat (A0 m c) (A1 m c) (A2 m c) (A3 m c) (rowAt t (⟨(j 0).val, hj0⟩ : Fin 512)) := by
    funext l
    rw [← acc_last m c t h1 (⟨(j 0).val, hj0⟩ : Fin 512) l]
    refine congrArg (_ + ·) ?_
    by_cases h : l.val < 256
    · rw [dif_pos h, dif_pos h, V_v2_apply]
    · rw [dif_neg h, dif_neg h, V_v2_apply]
  have e5 : (fun j' : Fin 32 => (V m c main_v3 : Vec Ideal S1x32 .f32) (ix2 (0 : Fin 1) j'))
      = fun j' => A5 m c (ix1 j') := funext fun j' => V_v3_apply m c j'
  have e7 : (fun k : Fin 32 => (V m c main_v4 : Vec Ideal S1x32 .f32) (ix2 (0 : Fin 1) k))
      = fun k => A7 m c (ix1 k) := funext fun k => V_v4_apply m c k
  rw [ea, e5, e7, V_v5_apply]
  rfl

/-- An index of the result array lies in point `t`'s block iff each coordinate lies in the block's range. -/
theorem mem_blk (t : Fin cfg0.N) (i : S4096x1.Idx) :
    i ∈ ((cfg0.win 10).blk t).view.set ↔ ∀ a : Fin 2, win0_10.index t a * S512x1.size a ≤ (i a).val
      ∧ (i a).val < win0_10.index t a * S512x1.size a + S512x1.size a := by
  show i ∈ ((View.whole main_v6).slice (win0_10.rect t)).set ↔ _
  rw [View.set_slice_whole, Rect.mem_set_unit]
  exact Iff.rfl

/-- THE RESULT ARRAY after the run is the network of the arguments: row `R` lies in the block that the last
    feature tile of row tile `R / 512` writes back. -/
theorem final (c : Dev nD) : (dats m 0 c).arrAt 10 cfg0.N = result m c :=
  (dats m 0 c).arrAt_eq_of_cover 10 (result m c) (fun t hf => flushed_eq m c t hf) fun i => by
    have hi0 : (i 0).val < 4096 := (i 0).isLt
    have hi1 : (i 1).val < 1 := (i 1).isLt
    have hN : cfg0.N = 520 := N_0
    obtain ⟨t, ht⟩ : ∃ t : Fin cfg0.N, t.val = 65 * ((i 0).val / 512) + 64 := ⟨⟨65 * ((i 0).val / 512) + 64, by omega⟩, rfl⟩
    obtain ⟨-, -, -, -, e0, e1⟩ := idx_facts t
    refine ⟨t, (flush0_10 t).mpr (by omega), ?_⟩
    rw [mem_blk]
    intro a
    match a with
    | ⟨0, _⟩ =>
      show win0_10.index t (0 : Fin 2) * 512 ≤ (i 0).val ∧ (i 0).val < win0_10.index t (0 : Fin 2) * 512 + 512
      omega
    | ⟨1, _⟩ =>
      show win0_10.index t (1 : Fin 2) * 1 ≤ (i 1).val ∧ (i 1).val < win0_10.index t (1 : Fin 2) * 1 + 1
      omega

/-- The run, read: the result array holds the network of the arguments, the arguments are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.Final

end
-- ==== Proof.lean ====
/-
  The kernel and its reference compute one function.

  Both evaluate the same small network on 4096 rows: a 256-unit feature transformer applied to two feature rows of
  41600 entries (shared weights and bias), the two results side by side, then three dense layers 512 → 32 → 32 → 1
  with a clipped leaky ramp before each. The reference does it with whole-array products. The kernel walks a grid
  of 8 row tiles × 65 feature tiles, adding each tile's 640 products into a carried 512 × 512 accumulator that it
  zeroes at the first feature tile, and runs the dense layers once per row tile after the last feature tile.

  Over the extended reals the two agree entry by entry: a 41600-term sum taken 640 terms at a time is the same sum
  (addition there is commutative and associative, and zero is neutral), narrowing the float format is the identity,
  and every other operation is applied to the same operands in the same order on both sides. No finiteness of the
  inputs is needed.

    Net       the network, once, as a function of the ten argument arrays
    RefNet    the reference's result is that function
    Payload   the kernel body's arithmetic at an entry
    Pieces    what one grid point leaves in the accumulator and in the result block
    Blocks    what the kernel's windows hold at a grid point, as entries of the argument arrays
    Accum     the accumulator over a row tile
    Final     the result array after the grid has run

  The three frame claims are the generated frames; the idealization rewrote nothing, so its claim is trivial.
-/
import proofs.«148835_j63977832841234_2_alg».proof.Defs
import proofs.«148835_j63977832841234_2_alg».proof.Proof.Gen.Kernel
import proofs.«148835_j63977832841234_2_alg».proof.Proof.Gen.Kernel.Skeleton
import proofs.«148835_j63977832841234_2_alg».proof.Proof.Gen.Kernel.Launch
import proofs.«148835_j63977832841234_2_alg».proof.Proof.Gen.Kernel.Points
import proofs.«148835_j63977832841234_2_alg».proof.Proof.Gen.Kernel.Frame
import proofs.«148835_j63977832841234_2_alg».proof.Proof.Gen.KernelIdeal
import proofs.«148835_j63977832841234_2_alg».proof.Proof.Gen.KernelIdeal.Skeleton
import proofs.«148835_j63977832841234_2_alg».proof.Proof.Gen.KernelIdeal.Launch
import proofs.«148835_j63977832841234_2_alg».proof.Proof.Gen.KernelIdeal.Points
import proofs.«148835_j63977832841234_2_alg».proof.Proof.Gen.KernelIdeal.Frame
import proofs.«148835_j63977832841234_2_alg».proof.Proof.Gen.ReferenceIdeal
import proofs.«148835_j63977832841234_2_alg».proof.Proof.Gen.Pre_finite_inputs
import proofs.«148835_j63977832841234_2_alg».proof.Proof.Gen.KernelIdeal.Value
import proofs.«148835_j63977832841234_2_alg».proof.Proof.Gen.ReferenceIdeal.Run
import proofs.«148835_j63977832841234_2_alg».proof.Proof.Gen.ReferenceIdeal.Read
import proofs.«148835_j63977832841234_2_alg».proof.Proof.Net
import proofs.«148835_j63977832841234_2_alg».proof.Proof.RefNet
import proofs.«148835_j63977832841234_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the network of the (agreeing) argument arrays. -/
theorem algebraic : Cert.algebraic_KernelIdeal_ReferenceIdeal := by
  intro m ρ m' ρ' _ hagree
  refine ⟨fun c => Cert.Final.result m c, Cert.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v64_eq, Cert.RefNet.ref_eq, a0, a1, a2, a3, a4, a5, a6, a7, a8, a9]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
